-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x64 : Shape := ⟨2, ![50000, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S50000x64 .f32) (main_arg3 : FVec F S64 .f32) (main_arg4 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S50000x64 : Shape := ⟨2, ![50000, 64]⟩
abbrev S64 : Shape := ⟨1, ![64]⟩
abbrev S64x128 : Shape := ⟨2, ![64, 128]⟩
abbrev S1x64 : Shape := ⟨2, ![1, 64]⟩
abbrev S64x64 : Shape := ⟨2, ![64, 64]⟩
abbrev S1x1 : Shape := ⟨2, ![1, 1]⟩
abbrev S10000x64 : Shape := ⟨2, ![10000, 64]⟩
abbrev S10000x128 : Shape := ⟨2, ![10000, 128]⟩
abbrev S10000 : Shape := ⟨1, ![10000]⟩
abbrev S10000x1 : Shape := ⟨2, ![10000, 1]⟩
abbrev S1 : Shape := ⟨1, ![1]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩

abbrev nBuf : Space → Nat
  | .hbm => 55
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x64, .f32⟩
  | .hbm, ⟨3, _⟩ => ⟨S64, .f32⟩
  | .hbm, ⟨4, _⟩ => ⟨S64x128, .f32⟩
  | .hbm, ⟨5, _⟩ => ⟨S1x64, .f32⟩
  | .hbm, ⟨6, _⟩ => ⟨S64x128, .bf16⟩
  | .hbm, ⟨7, _⟩ => ⟨S50000x64, .bf16⟩
  | .hbm, ⟨8, _⟩ => ⟨S50000x64, .bf16⟩
  | .hbm, ⟨9, _⟩ => ⟨S64x64, .f32⟩
  | .hbm, ⟨10, _⟩ => ⟨S1x1, .f32⟩
  | .hbm, ⟨11, _⟩ => ⟨S64x64, .f32⟩
  | .hbm, ⟨12, _⟩ => ⟨S64x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .bf16⟩
  | .hbm, ⟨31, _⟩ => ⟨S800000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .bf16⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S10000x64, .f32⟩
  | .local _ .vmem, ⟨1, _⟩ => ⟨S10000x64, .f32⟩
  | .local _ .vmem, ⟨2, _⟩ => ⟨S1x64, .f32⟩
  | .local _ .vmem, ⟨3, _⟩ => ⟨S10000x128, .f32⟩
  | .local _ .vmem, ⟨4, _⟩ => ⟨S10000x128, .f32⟩
  | .local _ .vmem, ⟨5, _⟩ => ⟨S64x128, .bf16⟩
  | .local _ .vmem, ⟨6, _⟩ => ⟨S10000x64, .bf16⟩
  | .local _ .vmem, ⟨7, _⟩ => ⟨S10000x64, .bf16⟩
  | .local _ .vmem, ⟨8, _⟩ => ⟨S10000x64, .bf16⟩
  | .local _ .vmem, ⟨9, _⟩ => ⟨S10000x64, .bf16⟩
  | .local _ .vmem, ⟨10, _⟩ => ⟨S64x64, .f32⟩
  | .local _ .vmem, ⟨11, _⟩ => ⟨S1x1, .f32⟩
  | .local _ .vmem, ⟨12, _⟩ => ⟨S64x64, .f32⟩
  | .local _ .vmem, ⟨13, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v34 : BitVec 1 := Scalar.cmpi .eq arg0 c4_i32
  let v35 : BitVec 32 := Scalar.extui v34
  let c0_i32_23 : BitVec 32 := 0#32
  let v36 : BitVec 1 := Scalar.cmpi .ne v35 c0_i32_23
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S64_S1x64 : S64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  reduces_S10000x1_S1 : S10000x1.Reduces [0] S1
  shapeCasts_S1_S1x1 : S1.ShapeCasts S1x1
  transposes_S64x64_S64x64_1_0 : S64x64.Transposes [1, 0] S64x64
  reducesTo_S64x64_S_d0_1 : S64x64.ReducesTo [0, 1] S_
  h_S_ : 0 < S_.numel
  shapeCasts_S1x1_S_ : S1x1.ShapeCasts S_
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S_d0_1 : S800000x64.ReducesTo [0, 1] S_
  dot_S10000x64_S10000x64_S64x64_0_0_1_1_n_n_wf : DotDims.WF S10000x64 S10000x64 S64x64 [0] [0] [1] [1] [] []
  dot_S10000x64_S64x128_S10000x128_1_0_0_1_n_n_wf : DotDims.WF S10000x64 S64x128 S10000x128 [1] [0] [0] [1] [] []
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .bf16 = 32 ∨ (Rect.block (s := S50000x64) S10000x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .bf16 = 32 ∨ (Rect.block (s := S50000x64) S10000x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_arg2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S64x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000x64 : Shape := ⟨2, ![50000, 64]⟩
abbrev S64 : Shape := ⟨1, ![64]⟩
abbrev S64x128 : Shape := ⟨2, ![64, 128]⟩
abbrev S_ : Shape := ⟨0, ![]⟩
abbrev S1x64 : Shape := ⟨2, ![1, 64]⟩
abbrev S64x64 : Shape := ⟨2, ![64, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x64, .f32⟩
  | .hbm, ⟨3, _⟩ => ⟨S64, .f32⟩
  | .hbm, ⟨4, _⟩ => ⟨S64x128, .f32⟩
  | .hbm, ⟨5, _⟩ => ⟨S50000x64, .f32⟩
  | .hbm, ⟨6, _⟩ => ⟨S50000x64, .f32⟩
  | .hbm, ⟨7, _⟩ => ⟨S_, .f32⟩
  | .hbm, ⟨8, _⟩ => ⟨S50000x64, .f32⟩
  | .hbm, ⟨9, _⟩ => ⟨S50000x64, .f32⟩
  | .hbm, ⟨10, _⟩ => ⟨S_, .f32⟩
  | .hbm, ⟨11, _⟩ => ⟨S50000x64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S_, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S1x64, .f32⟩
  | .hbm, ⟨35, _⟩ => ⟨S800000x64, .f32⟩
  | .hbm, ⟨36, _⟩ => ⟨S800000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  reducesTo_S64x64_S_d0_1 : S64x64.ReducesTo [0, 1] S_
  h_S_ : 0 < S_.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S1x64_S800000x64_0_1 : S1x64.BroadcastsInDim S800000x64 (![0, 1] : Fin 2 → Fin S800000x64.rank)
  reducesTo_S800000x64_S_d0_1 : S800000x64.ReducesTo [0, 1] S_
  reducesTo_S50000x128_S_d0_1 : S50000x128.ReducesTo [0, 1] S_
  dot_S50000x64_S50000x64_S64x64_0_0_1_1_n_n_wf : DotDims.WF S50000x64 S50000x64 S64x64 [0] [0] [1] [1] [] []
  gather_S50000x64_S800000x1_S800000x64_1_0_n_n_0_1_164_wf : GatherDims.WF S50000x64 S800000x1 S800000x64 [1] [0] [] [0] [] 1 ![1, 64]
  dot_S50000x64_S64x128_S50000x128_1_0_0_1_n_n_wf : DotDims.WF S50000x64 S64x128 S50000x128 [1] [0] [0] [1] [] []

variable [Facts₀]

def dot_S50000x64_S50000x64_S64x64_0_0_1_1_n_n : DotDims S50000x64 S50000x64 S64x64 where
  lhsContracting := [0]
  rhsContracting := [0]
  lhsNonContracting := [1]
  rhsNonContracting := [1]
  lhsBatch := []
  rhsBatch := []
  wf := dot_S50000x64_S50000x64_S64x64_0_0_1_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KernelPieces.lean ====
/-
  What each run of the body leaves behind, read back as values.

  The body is run once per case of its two conditionals: the first grid point (which first zeroes the two accumulators),
  the points in between, and the last point (which also copies the accumulators out).  In every case the two per-point
  outputs are stored whole, so their buffers end holding the stored blocks; an accumulator is stored whole after being
  read, so it ends holding the updated value computed from what it held before — the zero block at the first point.
-/
import proofs.«106901_j64604898066506_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the affiliations' buffer holds the block of affiliations. -/
theorem out_A_4 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : cond0_0 i) (hc1 : ¬cond0_1 i)
    (x0 : Vec F S10000x64 .f32) (x1 : Vec F S1x64 .f32) (x2 : Vec F S10000x128 .f32) (x3 : Vec F S64x128 .bf16) :
    out0_A_4 c i a1 h1 a2 h2 a3 h3 a4 h4 a5 h5 a6 h6 a7 h7 a8 h8 a9 h9 a10 h10 hc0 hc1 x0 x1 x2 x3 = k0_pay5 x0 := by
  unfold out0_A_4
  rw [View.read_writes_eq_canon _ _ _ (cover0_A_4 c i a1 h1 a2 h2 a3 h3 a4 h4 a5 h5 a6 h6 a7 h7 a8 h8 a9 h9 a10 h10 hc0 hc1 x0 x1 x2 x3)]
  unfold kernelRun0_A
  dsimp only
  rw [View.canon_unit_zero hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- Middle points: the same. -/
theorem out_B_4 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : ¬cond0_0 i) (hc1 : ¬cond0_1 i)
    (x0 : Vec F S10000x64 .f32) (x1 : Vec F S1x64 .f32) (x2 : Vec F S10000x128 .f32) (x3 : Vec F S64x128 .bf16) (xs0 : Vec F S64x64 .f32) (xs1 : Vec F S1x1 .f32) :
    out0_B_4 c i a1 h1 a2 h2 a3 h3 a4 h4 a5 h5 a6 h6 a7 h7 a8 h8 a9 h9 a10 h10 hc0 hc1 x0 x1 x2 x3 xs0 xs1 = k0_pay5 x0 := by
  unfold out0_B_4
  rw [View.read_writes_eq_canon _ _ _ (cover0_B_4 c i a1 h1 a2 h2 a3 h3 a4 h4 a5 h5 a6 h6 a7 h7 a8 h8 a9 h9 a10 h10 hc0 hc1 x0 x1 x2 x3 xs0 xs1)]
  unfold kernelRun0_B
  dsimp only
  rw [View.canon_unit_zero hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- Last point: the same. -/
theorem out_C_4 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : ¬cond0_0 i) (hc1 : cond0_1 i)
    (x0 : Vec F S10000x64 .f32) (x1 : Vec F S1x64 .f32) (x2 : Vec F S10000x128 .f32) (x3 : Vec F S64x128 .bf16) (xs0 : Vec F S64x64 .f32) (xs1 : Vec F S1x1 .f32) :
    out0_C_4 c i a1 h1 a2 h2 a3 h3 a4 h4 a5 h5 a6 h6 a7 h7 a8 h8 a9 h9 a10 h10 hc0 hc1 x0 x1 x2 x3 xs0 xs1 = k0_pay5 x0 := by
  unfold out0_C_4
  rw [View.read_writes_eq_canon _ _ _ (cover0_C_4 c i a1 h1 a2 h2 a3 h3 a4 h4 a5 h5 a6 h6 a7 h7 a8 h8 a9 h9 a10 h10 hc0 hc1 x0 x1 x2 x3 xs0 xs1)]
  unfold kernelRun0_C
  dsimp only
  rw [View.canon_unit_zero hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- First point: the scaled affiliations' buffer holds their block. -/
theorem out_A_5 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : cond0_0 i) (hc1 : ¬cond0_1 i)
    (x0 : Vec F S10000x64 .f32) (x1 : Vec F S1x64 .f32) (x2 : Vec F S10000x128 .f32) (x3 : Vec F S64x128 .bf16) :
    out0_A_5 c i a1 h1 a2 h2 a3 h3 a4 h4 a5 h5 a6 h6 a7 h7 a8 h8 a9 h9 a10 h10 hc0 hc1 x0 x1 x2 x3 = k0_pay6 x0 x1 := by
  unfold out0_A_5
  rw [View.read_writes_eq_canon _ _ _ (cover0_A_5 c i a1 h1 a2 h2 a3 h3 a4 h4 a5 h5 a6 h6 a7 h7 a8 h8 a9 h9 a10 h10 hc0 hc1 x0 x1 x2 x3)]
  unfold kernelRun0_A
  dsimp only
  rw [View.canon_unit_zero hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- Middle points: the same. -/
theorem out_B_5 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : ¬cond0_0 i) (hc1 : ¬cond0_1 i)
    (x0 : Vec F S10000x64 .f32) (x1 : Vec F S1x64 .f32) (x2 : Vec F S10000x128 .f32) (x3 : Vec F S64x128 .bf16) (xs0 : Vec F S64x64 .f32) (xs1 : Vec F S1x1 .f32) :
    out0_B_5 c i a1 h1 a2 h2 a3 h3 a4 h4 a5 h5 a6 h6 a7 h7 a8 h8 a9 h9 a10 h10 hc0 hc1 x0 x1 x2 x3 xs0 xs1 = k0_pay6 x0 x1 := by
  unfold out0_B_5
  rw [View.read_writes_eq_canon _ _ _ (cover0_B_5 c i a1 h1 a2 h2 a3 h3 a4 h4 a5 h5 a6 h6 a7 h7 a8 h8 a9 h9 a10 h10 hc0 hc1 x0 x1 x2 x3 xs0 xs1)]
  unfold kernelRun0_B
  dsimp only
  rw [View.canon_unit_zero hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- Last point: the same. -/
theorem out_C_5 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : ¬cond0_0 i) (hc1 : cond0_1 i)
    (x0 : Vec F S10000x64 .f32) (x1 : Vec F S1x64 .f32) (x2 : Vec F S10000x128 .f32) (x3 : Vec F S64x128 .bf16) (xs0 : Vec F S64x64 .f32) (xs1 : Vec F S1x1 .f32) :
    out0_C_5 c i a1 h1 a2 h2 a3 h3 a4 h4 a5 h5 a6 h6 a7 h7 a8 h8 a9 h9 a10 h10 hc0 hc1 x0 x1 x2 x3 xs0 xs1 = k0_pay6 x0 x1 := by
  unfold out0_C_5
  rw [View.read_writes_eq_canon _ _ _ (cover0_C_5 c i a1 h1 a2 h2 a3 h3 a4 h4 a5 h5 a6 h6 a7 h7 a8 h8 a9 h9 a10 h10 hc0 hc1 x0 x1 x2 x3 xs0 xs1)]
  unfold kernelRun0_C
  dsimp only
  rw [View.canon_unit_zero hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- First point: the Gram accumulator is zeroed, read back and updated. -/
theorem sout_A_0 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : cond0_0 i) (hc1 : ¬cond0_1 i)
    (x0 : Vec F S10000x64 .f32) (x1 : Vec F S1x64 .f32) (x2 : Vec F S10000x128 .f32) (x3 : Vec F S64x128 .bf16) :
    sout0_A_0 c i a1 h1 a2 h2 a3 h3 a4 h4 a5 h5 a6 h6 a7 h7 a8 h8 a9 h9 a10 h10 hc0 hc1 x0 x1 x2 x3 = k0_pay7 x0 x1 k0_pay2 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S64x64) hz, View.readCov_unit_zero (S := S64x64) _ hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- First point: the loss accumulator is zeroed, read back and updated. -/
theorem sout_A_1 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : cond0_0 i) (hc1 : ¬cond0_1 i)
    (x0 : Vec F S10000x64 .f32) (x1 : Vec F S1x64 .f32) (x2 : Vec F S10000x128 .f32) (x3 : Vec F S64x128 .bf16) :
    sout0_A_1 c i a1 h1 a2 h2 a3 h3 a4 h4 a5 h5 a6 h6 a7 h7 a8 h8 a9 h9 a10 h10 hc0 hc1 x0 x1 x2 x3 = k0_pay1 (k0_pay8 x0 x1 x3 x2 k0_pay3) := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- Middle points: the Gram accumulator is updated from what the point before left. -/
theorem sout_B_0 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : ¬cond0_0 i) (hc1 : ¬cond0_1 i)
    (x0 : Vec F S10000x64 .f32) (x1 : Vec F S1x64 .f32) (x2 : Vec F S10000x128 .f32) (x3 : Vec F S64x128 .bf16) (xs0 : Vec F S64x64 .f32) (xs1 : Vec F S1x1 .f32) :
    sout0_B_0 c i a1 h1 a2 h2 a3 h3 a4 h4 a5 h5 a6 h6 a7 h7 a8 h8 a9 h9 a10 h10 hc0 hc1 x0 x1 x2 x3 xs0 xs1 = k0_pay7 x0 x1 xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 xs0 xs1)]
  unfold kernelRun0_B
  dsimp only
  rw [View.canon_unit_zero hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- Middle points: the loss accumulator likewise. -/
theorem sout_B_1 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : ¬cond0_0 i) (hc1 : ¬cond0_1 i)
    (x0 : Vec F S10000x64 .f32) (x1 : Vec F S1x64 .f32) (x2 : Vec F S10000x128 .f32) (x3 : Vec F S64x128 .bf16) (xs0 : Vec F S64x64 .f32) (xs1 : Vec F S1x1 .f32) :
    sout0_B_1 c i a1 h1 a2 h2 a3 h3 a4 h4 a5 h5 a6 h6 a7 h7 a8 h8 a9 h9 a10 h10 hc0 hc1 x0 x1 x2 x3 xs0 xs1 = k0_pay1 (k0_pay8 x0 x1 x3 x2 xs1) := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 xs0 xs1)]
  unfold kernelRun0_B
  dsimp only
  sl_unfold_words
  rw [View.canon_unit_zero hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- Last point: the Gram output receives the accumulator after its update. -/
theorem out_C_6 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : ¬cond0_0 i) (hc1 : cond0_1 i)
    (x0 : Vec F S10000x64 .f32) (x1 : Vec F S1x64 .f32) (x2 : Vec F S10000x128 .f32) (x3 : Vec F S64x128 .bf16) (xs0 : Vec F S64x64 .f32) (xs1 : Vec F S1x1 .f32) :
    out0_C_6 c i a1 h1 a2 h2 a3 h3 a4 h4 a5 h5 a6 h6 a7 h7 a8 h8 a9 h9 a10 h10 hc0 hc1 x0 x1 x2 x3 xs0 xs1 = k0_pay7 x0 x1 xs0 := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 xs0 xs1)]
  unfold kernelRun0_C
  dsimp only
  sl_unfold_words
  rw [View.canon_unit_zero hz, View.readCov_unit_zero (S := S64x64) _ hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

/-- Last point: the loss output receives the accumulator after its update. -/
theorem out_C_7 (c : Dev nD) (i : grid0.Coords)
    (a1 : Memref sig .tc .vmem S10000x64 .f32) (h1 : a1.IsWhole) (a2 : Memref sig .tc .vmem S1x64 .f32) (h2 : a2.IsWhole)
    (a3 : Memref sig .tc .vmem S10000x128 .f32) (h3 : a3.IsWhole) (a4 : Memref sig .tc .vmem S64x128 .bf16) (h4 : a4.IsWhole)
    (a5 : Memref sig .tc .vmem S10000x64 .bf16) (h5 : a5.IsWhole) (a6 : Memref sig .tc .vmem S10000x64 .bf16) (h6 : a6.IsWhole)
    (a7 : Memref sig .tc .vmem S64x64 .f32) (h7 : a7.IsWhole) (a8 : Memref sig .tc .vmem S1x1 .f32) (h8 : a8.IsWhole)
    (a9 : Memref sig .tc .vmem S64x64 .f32) (h9 : a9.IsWhole) (a10 : Memref sig .tc .vmem S1x1 .f32) (h10 : a10.IsWhole) (hc0 : ¬cond0_0 i) (hc1 : cond0_1 i)
    (x0 : Vec F S10000x64 .f32) (x1 : Vec F S1x64 .f32) (x2 : Vec F S10000x128 .f32) (x3 : Vec F S64x128 .bf16) (xs0 : Vec F S64x64 .f32) (xs1 : Vec F S1x1 .f32) :
    out0_C_7 c i a1 h1 a2 h2 a3 h3 a4 h4 a5 h5 a6 h6 a7 h7 a8 h8 a9 h9 a10 h10 hc0 hc1 x0 x1 x2 x3 xs0 xs1 = k0_pay1 (k0_pay8 x0 x1 x3 x2 xs1) := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 xs0 xs1)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h9.read_unread, h10.read_unread, View.ld_unit_zero (S := S10000x64) hz, View.ld_unit_zero (S := S1x64) hz, View.ld_unit_zero (S := S10000x128) hz, View.ld_unit_zero (S := S64x128) hz, View.ld_unit_zero (S := S64x64) hz, View.ld_unit_zero (S := S1x1) hz]

end Cert.KernelIdeal.Pieces

end
-- ==== Proof.KernelAcc.lean ====
/-
  What the outputs' buffers and the two carried accumulators hold after each grid point.

  The accumulators are defined by recursion on the point — zero, then each point's contribution added to what the
  point before left — and the frame run's own point-by-point account of the buffers is shown to agree with them by
  induction on the point.  The two per-point outputs hold that point's blocks at every point; the two accumulated
  outputs receive the accumulators' final values at the last point.
-/
import proofs.«106901_j64604898066506_2_alg».proof.Proof.KernelPieces

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ)

/-- The Gram accumulator after point `n`: the zero block, then each point's block product added in turn. -/
def accM (c : Dev nD) : (n : ℕ) → n < cfg0.N → Vec F S64x64 .f32
  | 0, h => k0_pay7 (iblk m c 0 ⟨0, h⟩) (iblk m c 1 ⟨0, h⟩) k0_pay2
  | n + 1, h => k0_pay7 (iblk m c 0 ⟨n + 1, h⟩) (iblk m c 1 ⟨n + 1, h⟩) (accM c n (Nat.lt_of_succ_lt h))

/-- The loss accumulator after point `n`: zero, then each point's sum of squared errors added in turn. -/
def accF (c : Dev nD) : (n : ℕ) → n < cfg0.N → Vec F S1x1 .f32
  | 0, h => k0_pay1 (k0_pay8 (iblk m c 0 ⟨0, h⟩) (iblk m c 1 ⟨0, h⟩) (iblk m c 3 ⟨0, h⟩) (iblk m c 2 ⟨0, h⟩) k0_pay3)
  | n + 1, h => k0_pay1 (k0_pay8 (iblk m c 0 ⟨n + 1, h⟩) (iblk m c 1 ⟨n + 1, h⟩) (iblk m c 3 ⟨n + 1, h⟩) (iblk m c 2 ⟨n + 1, h⟩)
      (accF c n (Nat.lt_of_succ_lt h)))

/-- Before the last point the two carried accumulators hold the running sums: by induction on the point, the first
    point starting from zero, every later one adding to what the point before left. -/
theorem scratch_eq (c : Dev nD) : ∀ (n : ℕ) (h : n < cfg0.N), n < 4 →
    (outsAt0 m c n h).2.2.2.2.1 = accM m c n h ∧ (outsAt0 m c n h).2.2.2.2.2 = accF m c n h
  | 0, h, _ => by
    have h0 : (⟨0, h⟩ : Fin cfg0.N).val % 5 = 0 := rfl
    have h1 : ¬(⟨0, h⟩ : Fin cfg0.N).val % 5 = 4 := by dsimp only; omega
    have e := outsAt0_A m c (⟨0, h⟩ : Fin cfg0.N) h0 h1
    refine ⟨(congrArg (fun z => z.2.2.2.2.1) e).trans ?_, (congrArg (fun z => z.2.2.2.2.2) e).trans ?_⟩
    · dsimp only
      exact sout_A_0 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr h0) (fun hq => h1 ((hcond0_1 (⟨0, h⟩ : Fin cfg0.N)).mp hq)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N))
    · dsimp only
      exact sout_A_1 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr h0) (fun hq => h1 ((hcond0_1 (⟨0, h⟩ : Fin cfg0.N)).mp hq)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N))
  | n + 1, h, h4 => by
    have h0 : ¬(⟨n + 1, h⟩ : Fin cfg0.N).val % 5 = 0 := by dsimp only; omega
    have h1 : ¬(⟨n + 1, h⟩ : Fin cfg0.N).val % 5 = 4 := by dsimp only; omega
    have e := outsAt0_B m c (⟨n + 1, h⟩ : Fin cfg0.N) h0 h1
    obtain ⟨ih1, ih2⟩ := scratch_eq c n (Nat.lt_of_succ_lt h) (by omega)
    refine ⟨(congrArg (fun z => z.2.2.2.2.1) e).trans ?_, (congrArg (fun z => z.2.2.2.2.2) e).trans ?_⟩
    · dsimp only
      refine (sout_B_0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hq => h0 ((hcond0_0 (⟨n + 1, h⟩ : Fin cfg0.N)).mp hq)) (fun hq => h1 ((hcond0_1 (⟨n + 1, h⟩ : Fin cfg0.N)).mp hq)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans ?_
      show k0_pay7 _ _ (outsAt0 m c n _).2.2.2.2.1 = k0_pay7 _ _ (accM m c n _)
      rw [ih1]
    · dsimp only
      refine (sout_B_1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hq => h0 ((hcond0_0 (⟨n + 1, h⟩ : Fin cfg0.N)).mp hq)) (fun hq => h1 ((hcond0_1 (⟨n + 1, h⟩ : Fin cfg0.N)).mp hq)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans ?_
      show k0_pay1 (k0_pay8 _ _ _ _ (outsAt0 m c n _).2.2.2.2.2) = k0_pay1 (k0_pay8 _ _ _ _ (accF m c n _))
      rw [ih2]

/-- At every point the first output's buffer is left holding the block of affiliations. -/
theorem out4_eq (c : Dev nD) (t : Fin cfg0.N) : (outsAt0 m c t.val t.isLt).1 = k0_pay5 (iblk m c 0 t) := by
  by_cases h0 : t.val % 5 = 0
  · have h1 : ¬t.val % 5 = 4 := by omega
    rw [outsAt0_A m c t h0 h1]
    dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun hq => h1 ((hcond0_1 t).mp hq)) (iblk m c 0 t) (iblk m c 1 t) (iblk m c 2 t) (iblk m c 3 t)
  · by_cases h1 : t.val % 5 = 4
    · rw [outsAt0_C m c t h0 h1]
      dsimp only
      exact out_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · rw [outsAt0_B m c t h0 h1]
      dsimp only
      exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hq => h0 ((hcond0_0 t).mp hq)) (fun hq => h1 ((hcond0_1 t).mp hq)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- At every point the second output's buffer is left holding the block of scaled affiliations. -/
theorem out5_eq (c : Dev nD) (t : Fin cfg0.N) : (outsAt0 m c t.val t.isLt).2.1 = k0_pay6 (iblk m c 0 t) (iblk m c 1 t) := by
  by_cases h0 : t.val % 5 = 0
  · have h1 : ¬t.val % 5 = 4 := by omega
    rw [outsAt0_A m c t h0 h1]
    dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun hq => h1 ((hcond0_1 t).mp hq)) (iblk m c 0 t) (iblk m c 1 t) (iblk m c 2 t) (iblk m c 3 t)
  · by_cases h1 : t.val % 5 = 4
    · rw [outsAt0_C m c t h0 h1]
      dsimp only
      exact out_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · rw [outsAt0_B m c t h0 h1]
      dsimp only
      exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hq => h0 ((hcond0_0 t).mp hq)) (fun hq => h1 ((hcond0_1 t).mp hq)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem lt4 : 4 < cfg0.N := by rw [show cfg0.N = 5 from N_0]; decide

/-- At the last point the third and fourth outputs' buffers receive the two accumulators after that point's update. -/
theorem out67_eq (c : Dev nD) :
    (outsAt0 m c (⟨4, lt4⟩ : Fin cfg0.N).val (⟨4, lt4⟩ : Fin cfg0.N).isLt).2.2.1 = accM m c 4 lt4
      ∧ (outsAt0 m c (⟨4, lt4⟩ : Fin cfg0.N).val (⟨4, lt4⟩ : Fin cfg0.N).isLt).2.2.2.1 = accF m c 4 lt4 := by
  have h0 : ¬(⟨4, lt4⟩ : Fin cfg0.N).val % 5 = 0 := by decide
  have h1 : (⟨4, lt4⟩ : Fin cfg0.N).val % 5 = 4 := rfl
  obtain ⟨ih1, ih2⟩ := scratch_eq m c 3 (Nat.lt_of_succ_lt lt4) (by decide)
  rw [outsAt0_C m c (⟨4, lt4⟩ : Fin cfg0.N) h0 h1]
  dsimp only
  refine ⟨?_, ?_⟩
  · refine (out_C_6 c (grid0.coords (⟨4, lt4⟩ : Fin cfg0.N)) (ms0_0 (⟨4, lt4⟩ : Fin cfg0.N)) (hs0_0 (⟨4, lt4⟩ : Fin cfg0.N)) (ms0_1 (⟨4, lt4⟩ : Fin cfg0.N)) (hs0_1 (⟨4, lt4⟩ : Fin cfg0.N)) (ms0_2 (⟨4, lt4⟩ : Fin cfg0.N)) (hs0_2 (⟨4, lt4⟩ : Fin cfg0.N)) (ms0_3 (⟨4, lt4⟩ : Fin cfg0.N)) (hs0_3 (⟨4, lt4⟩ : Fin cfg0.N)) (ms0_4 (⟨4, lt4⟩ : Fin cfg0.N)) (hs0_4 (⟨4, lt4⟩ : Fin cfg0.N)) (ms0_5 (⟨4, lt4⟩ : Fin cfg0.N)) (hs0_5 (⟨4, lt4⟩ : Fin cfg0.N)) (ms0_6 (⟨4, lt4⟩ : Fin cfg0.N)) (hs0_6 (⟨4, lt4⟩ : Fin cfg0.N)) (ms0_7 (⟨4, lt4⟩ : Fin cfg0.N)) (hs0_7 (⟨4, lt4⟩ : Fin cfg0.N)) scM0_0 (Memref.isWhole_whole _) scM0_1 (Memref.isWhole_whole _) (fun hq => h0 ((hcond0_0 (⟨4, lt4⟩ : Fin cfg0.N)).mp hq)) ((hcond0_1 (⟨4, lt4⟩ : Fin cfg0.N)).mpr h1) (iblk m c 0 (⟨4, lt4⟩ : Fin cfg0.N)) (iblk m c 1 (⟨4, lt4⟩ : Fin cfg0.N)) (iblk m c 2 (⟨4, lt4⟩ : Fin cfg0.N)) (iblk m c 3 (⟨4, lt4⟩ : Fin cfg0.N)) (outsAt0 m c ((⟨4, lt4⟩ : Fin cfg0.N).val - 1) (Nat.lt_of_le_of_lt (Nat.sub_le _ _) (⟨4, lt4⟩ : Fin cfg0.N).isLt)).2.2.2.2.1 (outsAt0 m c ((⟨4, lt4⟩ : Fin cfg0.N).val - 1) (Nat.lt_of_le_of_lt (Nat.sub_le _ _) (⟨4, lt4⟩ : Fin cfg0.N).isLt)).2.2.2.2.2).trans ?_
    show k0_pay7 _ _ (outsAt0 m c 3 _).2.2.2.2.1 = k0_pay7 _ _ (accM m c 3 _)
    rw [ih1]
  · refine (out_C_7 c (grid0.coords (⟨4, lt4⟩ : Fin cfg0.N)) (ms0_0 (⟨4, lt4⟩ : Fin cfg0.N)) (hs0_0 (⟨4, lt4⟩ : Fin cfg0.N)) (ms0_1 (⟨4, lt4⟩ : Fin cfg0.N)) (hs0_1 (⟨4, lt4⟩ : Fin cfg0.N)) (ms0_2 (⟨4, lt4⟩ : Fin cfg0.N)) (hs0_2 (⟨4, lt4⟩ : Fin cfg0.N)) (ms0_3 (⟨4, lt4⟩ : Fin cfg0.N)) (hs0_3 (⟨4, lt4⟩ : Fin cfg0.N)) (ms0_4 (⟨4, lt4⟩ : Fin cfg0.N)) (hs0_4 (⟨4, lt4⟩ : Fin cfg0.N)) (ms0_5 (⟨4, lt4⟩ : Fin cfg0.N)) (hs0_5 (⟨4, lt4⟩ : Fin cfg0.N)) (ms0_6 (⟨4, lt4⟩ : Fin cfg0.N)) (hs0_6 (⟨4, lt4⟩ : Fin cfg0.N)) (ms0_7 (⟨4, lt4⟩ : Fin cfg0.N)) (hs0_7 (⟨4, lt4⟩ : Fin cfg0.N)) scM0_0 (Memref.isWhole_whole _) scM0_1 (Memref.isWhole_whole _) (fun hq => h0 ((hcond0_0 (⟨4, lt4⟩ : Fin cfg0.N)).mp hq)) ((hcond0_1 (⟨4, lt4⟩ : Fin cfg0.N)).mpr h1) (iblk m c 0 (⟨4, lt4⟩ : Fin cfg0.N)) (iblk m c 1 (⟨4, lt4⟩ : Fin cfg0.N)) (iblk m c 2 (⟨4, lt4⟩ : Fin cfg0.N)) (iblk m c 3 (⟨4, lt4⟩ : Fin cfg0.N)) (outsAt0 m c ((⟨4, lt4⟩ : Fin cfg0.N).val - 1) (Nat.lt_of_le_of_lt (Nat.sub_le _ _) (⟨4, lt4⟩ : Fin cfg0.N).isLt)).2.2.2.2.1 (outsAt0 m c ((⟨4, lt4⟩ : Fin cfg0.N).val - 1) (Nat.lt_of_le_of_lt (Nat.sub_le _ _) (⟨4, lt4⟩ : Fin cfg0.N).isLt)).2.2.2.2.2).trans ?_
    show k0_pay1 (k0_pay8 _ _ _ _ (outsAt0 m c 3 _).2.2.2.2.2) = k0_pay1 (k0_pay8 _ _ _ _ (accF m c 3 _))
    rw [ih2]

end Cert.KernelIdeal.Acc

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibMatmulFirstAxis.lean ====
/-
  A matrix product contracting the FIRST axis of both operands (`l.T @ r`: an `R × M` left operand, an `R × N`
  right operand, an `M × N` result, dimension numbers `<[0], [0], [1], [1]>`), read at one entry over the
  extended reals.

  Whatever record of dimension numbers carries those six lists, the left operand is read at row `k` of the
  contraction and column `p` (the result's row), the right operand at row `k` and column `q` (the result's
  column); the contraction index is one coordinate, so the sum over it is a sum over `Fin R`.  Into a zero
  accumulator entry `(p, q)` is `∑ k, l (k, p) · r (k, q)`; into any accumulator, the accumulator's entry plus it.
-/
import Idealize.ShloMosaic.PureOps.Ideal
import Idealize.ShloMosaic.PureOps.Ideal.Laws
import Idealize.ShloMosaic.Lib.ValueIdx

noncomputable section

namespace Idealize.ShloMosaic.MatmulFirstAxis

open Idealize.ShloMosaic Idealize.ShloMosaic.ValueIdx
open scoped BigOperators

variable {R M N : Nat}

/-- The six lists of dimension numbers of `l.T @ r`. -/
structure IsFirstAxis (D : DotDims ⟨2, ![R, M]⟩ ⟨2, ![R, N]⟩ ⟨2, ![M, N]⟩) : Prop where
  lc : D.lhsContracting = [0]
  rc : D.rhsContracting = [0]
  ln : D.lhsNonContracting = [1]
  rn : D.rhsNonContracting = [1]
  lb : D.lhsBatch = []
  rb : D.rhsBatch = []

variable {D : DotDims ⟨2, ![R, M]⟩ ⟨2, ![R, N]⟩ ⟨2, ![M, N]⟩}

theorem IsFirstAxis.rank_contr (h : IsFirstAxis D) : D.contr.rank = 1 := by
  rw [D.rank_contr, h.lc]; rfl

theorem IsFirstAxis.size_contr (h : IsFirstAxis D) : D.contr.size ⟨0, by rw [h.rank_contr]; exact Nat.one_pos⟩ = R := by
  have e := D.size_contr 0 (by rw [h.lc]; exact Nat.one_pos)
  rw [e]
  simp only [h.lc]
  rfl

/-- The left operand's column is the result's row. -/
theorem IsFirstAxis.lhs_col (h : IsFirstAxis D) (j : (⟨2, ![M, N]⟩ : Shape).Idx) (k : D.contr.Idx) :
    (D.lhsIdx j k 1).val = (j 0).val := by
  have hb : (1 : Fin (⟨2, ![R, M]⟩ : Shape).rank) ∉ D.lhsBatch := by rw [h.lb]; exact List.not_mem_nil
  have hn : (1 : Fin (⟨2, ![R, M]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsFirstAxis.rhs_col (h : IsFirstAxis D) (j : (⟨2, ![M, N]⟩ : Shape).Idx) (k : D.contr.Idx) :
    (D.rhsIdx j k 1).val = (j 1).val := by
  have hb : (1 : Fin (⟨2, ![R, N]⟩ : Shape).rank) ∉ D.rhsBatch := by rw [h.rb]; exact List.not_mem_nil
  have hn : (1 : Fin (⟨2, ![R, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `R`. -/
def IsFirstAxis.contrEquiv (h : IsFirstAxis D) : D.contr.Idx ≃ Fin R :=
  contrEquiv1 D R h.rank_contr h.size_contr

/-- The two operands' indices at result entry `(p, q)` and contraction coordinate `k`. -/
theorem IsFirstAxis.lhsIdx_eq (h : IsFirstAxis D) (p : Fin M) (q : Fin N) (k : Fin R) :
    D.lhsIdx (ix2 p q) (h.contrEquiv.symm k) = ix2 k p := by
  funext a
  apply Fin.ext
  match a with
  | ⟨0, _⟩ =>
    show (D.lhsIdx (ix2 p q) (h.contrEquiv.symm k) 0).val = k.val
    rw [D.lhsIdx_val_of_single h.lc]
    exact contrEquiv1_symm_val D R h.rank_contr h.size_contr k
  | ⟨1, _⟩ => exact h.lhs_col (ix2 p q) _

theorem IsFirstAxis.rhsIdx_eq (h : IsFirstAxis D) (p : Fin M) (q : Fin N) (k : Fin R) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D R h.rank_contr h.size_contr k
  | ⟨1, _⟩ => exact h.rhs_col (ix2 p q) _

/-- The product into an accumulator, read at entry `(p, q)`: the accumulator there plus the sum over the shared
    first axis of the operands' products. -/
theorem matmul_apply (h : IsFirstAxis D) {φ₁ φ₂ : FTy} (prec : Option ContractPrecision)
    (l : FVec Ideal ⟨2, ![R, M]⟩ φ₁) (r : FVec Ideal ⟨2, ![R, N]⟩ φ₂) (acc : FVec Ideal ⟨2, ![M, N]⟩ .f32)
    (p : Fin M) (q : Fin N) :
    FloatOps.matmul D prec l r acc (ix2 p q) = acc (ix2 p q) + ∑ k : Fin R, l (ix2 k p) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsFirstAxis D) {φ₁ φ₂ : FTy} (prec : Option ContractPrecision)
    (l : FVec Ideal ⟨2, ![R, M]⟩ φ₁) (r : FVec Ideal ⟨2, ![R, N]⟩ φ₂) (p : Fin M) (q : Fin N) :
    FloatOps.matmul D prec l r (constant ⟨2, ![M, N]⟩ .f32 0x00000000#32) (ix2 p q)
      = ∑ k : Fin R, l (ix2 k p) * r (ix2 k q) := by
  rw [matmul_apply h]
  show Ideal.ofBits .f32 0x00000000#32 + _ = _
  rw [Ideal.ofBits_zero_f32, zero_add]

end Idealize.ShloMosaic.MatmulFirstAxis

end
-- ==== Proof.KernelPayloads.lean ====
/-
  What one grid point computes from its blocks, entry by entry, over the extended reals.

  A point holds a block `a` of 10000 rows of the logits, the scalars as one row `s`, a block `x` of 10000 rows of the
  features and the whole feature matrix `w`.  With `σ` the logistic function the point produces
    * the block of `A`:   `σ (a r k)`;
    * the block of `A·s`: `σ (a r k) · s k`;
    * the Gram accumulator: the previous one plus `∑ r, σ (a r k) · (σ (a r l) · s l)`;
    * the loss accumulator: the previous one plus `∑ r, ∑ f, e r f · e r f`, where
      `e r f = x r f − ∑ k, (σ (a r k) · s k) · w k f` is the reconstruction error.
  Rounding to a narrower format is the identity on the extended reals, a product into the zero block is the plain sum of
  products, and a sum along one axis started from zero is the plain sum.
-/
import proofs.«106901_j64604898066506_2_alg».proof.Proof.Gen.KernelIdeal.Skeleton
import proofs.«106901_j64604898066506_2_alg».proof.Proof.LibMatmulPlain
import proofs.«106901_j64604898066506_2_alg».proof.Proof.LibMatmulFirstAxis
import Idealize.ShloMosaic.Lib.ValueIdx
import Idealize.ShloMosaic.Lib.Pipeline.Value
import Idealize.ShloMosaic.PureOps.Ideal.Laws

noncomputable section

namespace Cert.KernelIdeal.Payloads

open Idealize.ShloMosaic Idealize.ShloMosaic.ValueIdx
open Cert.KernelIdeal Cert.KernelIdeal.Gen
open scoped BigOperators

variable (a : FVec Ideal S10000x64 .f32) (s : FVec Ideal S1x64 .f32) (x : FVec Ideal S10000x128 .f32) (w : FVec Ideal S64x128 .bf16)

/-- The block of `A`: the logistic function of the logits, entry by entry. -/
theorem pay5_apply (j : S10000x64.Idx) : k0_pay5 (F := Ideal) a j = Ideal.logistic (a j) := rfl

/-- The scalars' row spread over the block's rows reads, at `(r, k)`, the scalar `k`. -/
theorem scalars_row_apply (r : Fin 10000) (k : Fin 64) :
    broadcastTo S10000x64 (shapeCast S1x64 s Facts₀.shapeCasts_S1x64_S1x64) Facts₀.broadcasts_S1x64_S10000x64 (ix2 r k) = s (ix2 0 k) := by
  rw [shapeCast_self]
  exact broadcastTo_apply s Facts₀.broadcasts_S1x64_S10000x64 (ix2 r k) (ix2 0 k) (fun c => match c with
    | ⟨0, _⟩ => rfl
    | ⟨1, _⟩ => rfl)

/-- The block of `A·s`. -/
theorem pay6_apply (r : Fin 10000) (k : Fin 64) :
    k0_pay6 (F := Ideal) a s (ix2 r k) = Ideal.logistic (a (ix2 r k)) * s (ix2 0 k) :=
  congrArg (Ideal.logistic (a (ix2 r k)) * ·) (scalars_row_apply s r k)

theorem gram_dims : MatmulFirstAxis.IsFirstAxis dot_S10000x64_S10000x64_S64x64_0_0_1_1_n_n :=
  ⟨rfl, rfl, rfl, rfl, rfl, rfl⟩

theorem recon_dims : MatmulPlain.IsPlain dot_S10000x64_S64x128_S10000x128_1_0_0_1_n_n :=
  ⟨rfl, rfl, rfl, rfl, rfl, rfl⟩

/-- The Gram accumulator after the point: the one before plus this block's `Aᵀ (A·s)`. -/
theorem pay7_apply (acc : Vec Ideal S64x64 .f32) (k l : Fin 64) :
    k0_pay7 (F := Ideal) a s acc (ix2 k l)
      = acc (ix2 k l) + ∑ r : Fin 10000, k0_pay5 (F := Ideal) a (ix2 r k) * k0_pay6 (F := Ideal) a s (ix2 r l) := by
  unfold k0_pay7
  rw [shapeCast_self]
  exact congrArg (acc (ix2 k l) + ·)
    (MatmulFirstAxis.matmul_zero_apply gram_dims none (k0_pay5 (F := Ideal) a) (k0_pay6 (F := Ideal) a s) k l)

/-- The reconstruction error of the block at `(r, f)`. -/
def err (r : Fin 10000) (f : Fin 128) : EReal :=
  x (ix2 r f) - ∑ k : Fin 64, k0_pay6 (F := Ideal) a s (ix2 r k) * w (ix2 k f)

/-- The loss accumulator after the point: the one before plus the block's sum of squared errors. -/
theorem pay8_apply (acc : Vec Ideal S1x1 .f32) (u v : Fin 1) :
    k0_pay8 (F := Ideal) a s w x acc (ix2 u v)
      = acc (ix2 u v) + ∑ r : Fin 10000, ∑ f : Fin 128, err a s x w r f * err a s x w r f := by
  unfold k0_pay8
  refine congrArg (acc (ix2 u v) + ·) ?_
  refine (shapeCast_apply _ Facts₀.shapeCasts_S1_S1x1 (ix2 u v) (ix1 (0 : Fin 1)) ?_).trans ?_
  · rw [Shape.rowMajor_val_one, Shape.rowMajor_val_two]
    have hu : u.val = 0 := by omega
    have hv : v.val = 0 := by omega
    show 0 = u.val * 1 + v.val
    rw [hu, hv]
  refine (Ideal.multiReduction_add_single _ 0x00000000#32 Facts₀.reduces_S10000x1_S1 (.inl rfl) rfl (ix1 (0 : Fin 1))).trans ?_
  refine Finset.sum_congr rfl fun r _ => ?_
  refine (shapeCast_apply _ Facts₀.shapeCasts_S10000_S10000x1 _ (ix1 (r : Fin 10000)) ?_).trans ?_
  · rw [Shape.rowMajor_val_one, Shape.rowMajor_val_two]
    show r.val = r.val * 1 + 0
    omega
  refine (Ideal.multiReduction_add_single _ 0x00000000#32 Facts₀.reduces_S10000x128_S10000 (.inl rfl) rfl (ix1 (r : Fin 10000))).trans ?_
  refine Finset.sum_congr rfl fun f _ => ?_
  have e : Facts₀.reduces_S10000x128_S10000.lift (ix1 (r : Fin 10000)) f = ix2 (r : Fin 10000) (f : Fin 128) :=
    funext fun c => Fin.ext (by match c with | ⟨0, _⟩ => rfl | ⟨1, _⟩ => rfl)
  rw [e]
  have hm : (matmul dot_S10000x64_S64x128_S10000x128_1_0_0_1_n_n none (k0_pay6 (F := Ideal) a s)
      (shapeCast S64x128 w Facts₀.shapeCasts_S64x128_S64x128) (constant S10000x128 .f32 0x00000000#32) : FVec Ideal S10000x128 .f32)
        (ix2 (r : Fin 10000) (f : Fin 128))
      = ∑ k : Fin 64, k0_pay6 (F := Ideal) a s (ix2 (r : Fin 10000) k) * w (ix2 k (f : Fin 128)) := by
    rw [shapeCast_self]
    exact MatmulPlain.matmul_zero_apply recon_dims none (k0_pay6 (F := Ideal) a s) w r f
  have hd : (subf x (matmul dot_S10000x64_S64x128_S10000x128_1_0_0_1_n_n none (k0_pay6 (F := Ideal) a s)
      (shapeCast S64x128 w Facts₀.shapeCasts_S64x128_S64x128) (constant S10000x128 .f32 0x00000000#32)) : FVec Ideal S10000x128 .f32)
        (ix2 (r : Fin 10000) (f : Fin 128))
      = err a s x w r f := congrArg (x (ix2 (r : Fin 10000) (f : Fin 128)) - ·) hm
  exact congrArg₂ (· * ·) hd hd

end Cert.KernelIdeal.Payloads

end
-- ==== Proof.KernelBlocks.lean ====
/-
  The blocks a grid point works on, read off the argument arrays.

  Point `t` of the five holds rows `10000·t … 10000·t + 9999` of the logits and of the features; the scalars (reshaped
  to one row before the call) and the feature matrix (rounded to a narrower format before the call, which changes
  nothing over the extended reals) are the same whole arrays at every point.
-/
import proofs.«106901_j64604898066506_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen
open Idealize.ShloMosaic.ValueIdx Idealize.ShloMosaic.StableHlo

variable (m : (ℓ : Loc nD τ sig) → Buf (Elt Ideal) ℓ)

theorem N5 : cfg0.N = 5 := N_0

/-- The printed index maps, decided once over the five points: the row-blocked windows sit at block `t`, the others at
    block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `10000·t + r` of the whole arrays: row `r` of point `t`'s block. -/
def rowAt (t : Fin cfg0.N) (r : Fin 10000) : Fin 50000 :=
  ⟨10000 * t.val + r.val, by have h := t.isLt; have h5 := N5; omega⟩

theorem rowAt_val (t : Fin cfg0.N) (r : Fin 10000) : (rowAt t r).val = 10000 * t.val + r.val := rfl

/-- The scalars as the call finds them: the argument reshaped to one row. -/
theorem V_scalars (c : Dev nD) :
    (V m c main_v0 : S1x64.Idx → EReal) = shapeCast S1x64 (m ((c : Thread nD τ).loc main_arg3)) Facts₀.shapeCasts_S64_S1x64 := by
  show StableHlo.after hostOps0 (fun b => m (c, b)) (Proc.devRef .tc main_v0) = _
  after_results
  rfl

/-- The feature matrix as the call finds it: the argument, its rounding the identity. -/
theorem V_featmat (c : Dev nD) :
    (V m c main_v1 : S64x128.Idx → EReal) = m ((c : Thread nD τ).loc main_arg4) := by
  show StableHlo.after hostOps0 (fun b => m (c, b)) (Proc.devRef .tc main_v1) = _
  after_results
  rfl

/-- The logits' block at point `t`. -/
theorem blk0_apply (c : Dev nD) (t : Fin cfg0.N) (r : Fin 10000) (k : Fin 64) :
    (iblk m c 0 t : Vec Ideal S10000x64 .f32) (ix2 r k) = m ((c : Thread nD τ).loc main_arg2) (ix2 (rowAt t r) k) := by
  obtain ⟨e0, e1, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_0.index t (0 : Fin 2) * 10000 + 1 * r.val = 10000 * t.val + r.val; rw [e0]; omega
  | ⟨1, _⟩ => show win0_0.index t (1 : Fin 2) * 64 + 1 * k.val = k.val; rw [e1]; omega

/-- The features' block at point `t`. -/
theorem blk2_apply (c : Dev nD) (t : Fin cfg0.N) (r : Fin 10000) (f : Fin 128) :
    (iblk m c 2 t : Vec Ideal S10000x128 .f32) (ix2 r f) = m ((c : Thread nD τ).loc main_arg0) (ix2 (rowAt t r) f) := by
  obtain ⟨-, -, -, -, e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t (0 : Fin 2) * 10000 + 1 * r.val = 10000 * t.val + r.val; rw [e0]; omega
  | ⟨1, _⟩ => show win0_2.index t (1 : Fin 2) * 128 + 1 * f.val = f.val; rw [e1]; omega

/-- The scalars' row at every point: scalar `k` at `(0, k)`. -/
theorem blk1_apply (c : Dev nD) (t : Fin cfg0.N) (u : Fin 1) (k : Fin 64) :
    (iblk m c 1 t : Vec Ideal S1x64 .f32) (ix2 u k) = m ((c : Thread nD τ).loc main_arg3) (ix1 k) := by
  obtain ⟨-, -, e0, e1, -⟩ := idx_facts t
  have hu : u.val = 0 := by omega
  unfold iblk
  rw [View.read_apply]
  show V m c main_v0 _ = _
  rw [V_scalars]
  refine shapeCast_apply _ Facts₀.shapeCasts_S64_S1x64 _ (ix1 k) ?_
  rw [Shape.rowMajor_val_one, Shape.rowMajor_val_two]
  show k.val = (win0_1.index t (0 : Fin 2) * 1 + 1 * u.val) * 64 + (win0_1.index t (1 : Fin 2) * 64 + 1 * k.val)
  rw [e0, e1, hu]; omega

/-- The feature matrix at every point. -/
theorem blk3_apply (c : Dev nD) (t : Fin cfg0.N) (k : Fin 64) (f : Fin 128) :
    (iblk m c 3 t : Vec Ideal S64x128 .bf16) (ix2 k f) = m ((c : Thread nD τ).loc main_arg4) (ix2 k f) := by
  obtain ⟨-, -, -, -, -, -, e0, e1, -⟩ := idx_facts t
  unfold iblk
  rw [View.read_apply]
  show V m c main_v1 _ = _
  rw [V_featmat]
  refine congrArg (m ((c : Thread nD τ).loc main_arg4)) (funext fun a => Fin.ext ?_)
  match a with
  | ⟨0, _⟩ => show win0_3.index t (0 : Fin 2) * 64 + 1 * k.val = k.val; rw [e0]; omega
  | ⟨1, _⟩ => show win0_3.index t (1 : Fin 2) * 128 + 1 * f.val = f.val; rw [e1]; omega

end Cert.KernelIdeal.Blocks

end
-- ==== Proof.LibTiledSum.lean ====
/-
  A sum over `N · T` consecutive positions taken tile by tile, and a sum over two runs of tiles joined.

  The positions `0 … N·T − 1` are the pairs (tile `n < N`, offset `r < T`) at `T · n + r`; a sum over all
  positions is the sum over the tiles of each tile's sum, in any commutative monoid.
-/
import Mathlib.Algebra.BigOperators.Fin
import Mathlib.Algebra.BigOperators.Intervals
import Mathlib.Logic.Equiv.Fin.Basic

namespace Cert.TiledSum

open scoped BigOperators

variable {M : Type*} [AddCommMonoid M]

/-- Position `T · n + r` of tile `n`, offset `r`. -/
def pos {N T : Nat} (n : Fin N) (r : Fin T) : Fin (N * T) := finProdFinEquiv (n, r)

theorem pos_val {N T : Nat} (n : Fin N) (r : Fin T) : (pos n r).val = r.val + T * n.val := rfl

/-- `∑ ε, f ε = ∑ n, ∑ r, f (T·n + r)`. -/
theorem sum_tiles {N T : Nat} (f : Fin (N * T) → M) : ∑ ε : Fin (N * T), f ε = ∑ n : Fin N, ∑ r : Fin T, f (pos n r) := by
  rw [← Equiv.sum_comp finProdFinEquiv f, Fintype.sum_prod_type]
  rfl

/-- A sum over the tiles `0 … A + B − 1` written with naturals below the count: the first `A` tiles, then the next `B`. -/
theorem sum_fin_split (A B : Nat) (F : Nat → M) :
    ∑ n : Fin (A + B), F n.val = (∑ s ∈ Finset.range A, F s) + (∑ s ∈ Finset.range B, F (A + s)) := by
  rw [Fin.sum_univ_eq_sum_range (fun n => F n) (A + B), Finset.sum_range_add]

end Cert.TiledSum
-- ==== Proof.TileSums.lean ====
/-
  Fifty thousand rows taken in five tiles of ten thousand.

  Row `n` of the whole array is row `r` of tile `t` when `n = 10000 · t + r`.  A quantity accumulated tile by tile from
  zero — `((((0 + T₀) + T₁) + T₂) + T₃) + T₄`, each `Tₜ` the sum over the rows of tile `t` — is the sum over all rows,
  in any commutative monoid: addition is only re-associated, so this holds on the extended reals with no finiteness.
-/
import proofs.«106901_j64604898066506_2_alg».proof.Proof.LibTiledSum

namespace Cert.TileSums

open scoped BigOperators
open Cert.TiledSum

variable {M : Type*} [AddCommMonoid M]

/-- Row `10000 · t + r` of the whole array: row `r` of tile `t`. -/
def row (t : Fin 5) (r : Fin 10000) : Fin 50000 := ⟨10000 * t.val + r.val, by omega⟩

theorem row_val (t : Fin 5) (r : Fin 10000) : (row t r).val = 10000 * t.val + r.val := rfl

theorem row_eq_pos (t : Fin 5) (r : Fin 10000) : row t r = (pos t r : Fin (5 * 10000)) :=
  Fin.ext (by rw [pos_val, row_val]; omega)

/-- The sum over all rows is the sum over the tiles of each tile's sum. -/
theorem sum_rows (f : Fin 50000 → M) : ∑ n : Fin 50000, f n = ∑ t : Fin 5, ∑ r : Fin 10000, f (row t r) := by
  have h := sum_tiles (N := 5) (T := 10000) (M := M) f
  rw [h]
  refine Finset.sum_congr rfl fun t _ => Finset.sum_congr rfl fun r _ => ?_
  rw [row_eq_pos]

/-- Five tile sums accumulated in order from zero are the sum over all rows. -/
theorem five_tiles (f : Fin 50000 → M) :
    ((((0 + ∑ r : Fin 10000, f (row 0 r)) + ∑ r : Fin 10000, f (row 1 r)) + ∑ r : Fin 10000, f (row 2 r))
        + ∑ r : Fin 10000, f (row 3 r)) + ∑ r : Fin 10000, f (row 4 r)
      = ∑ n : Fin 50000, f n := by
  rw [sum_rows, Fin.sum_univ_five, zero_add]

end Cert.TileSums
-- ==== Proof.Spec.lean ====
/-
  The quantities both programs compute, as functions of the argument arrays over the extended reals.

  `aff` is the [50000, 64] array of logits, `cs` the 64 scalars, `x` the [50000, 128] features, `w` the [64, 128]
  feature matrix.  With `σ` the logistic function:
    A n k   = σ (aff n k)                         the affiliations
    B n k   = A n k · cs k                         the affiliations scaled column by column
    gram    = Aᵀ B                                 a [64, 64] matrix
    err n f = x n f − ∑ k, B n k · w k f           the reconstruction error
    loss    = ∑ n, ∑ f, err n f · err n f          the sum of its squares.
-/
import Idealize.ShloMosaic.PureOps.Ideal
import Idealize.ShloMosaic.Lib.ValueIdx

noncomputable section

namespace Cert.Spec

open Idealize.ShloMosaic Idealize.ShloMosaic.ValueIdx
open scoped BigOperators

variable (aff : (⟨2, ![50000, 64]⟩ : Shape).Idx → EReal) (cs : (⟨1, ![64]⟩ : Shape).Idx → EReal)
  (x : (⟨2, ![50000, 128]⟩ : Shape).Idx → EReal) (w : (⟨2, ![64, 128]⟩ : Shape).Idx → EReal)

/-- The affiliation of node `n` to community `k`. -/
def A (n : Fin 50000) (k : Fin 64) : EReal := Ideal.logistic (aff (ix2 n k))

/-- The affiliation scaled by the community's scalar. -/
def B (n : Fin 50000) (k : Fin 64) : EReal := A aff n k * cs (ix1 k)

/-- Entry `(k, l)` of `Aᵀ B`. -/
def gram (k l : Fin 64) : EReal := ∑ n : Fin 50000, A aff n k * B aff cs n l

/-- The reconstruction error at node `n`, feature `f`. -/
def err (n : Fin 50000) (f : Fin 128) : EReal := x (ix2 n f) - ∑ k : Fin 64, B aff cs n k * w (ix2 k f)

/-- The sum of the squared reconstruction errors. -/
def loss : EReal := ∑ n : Fin 50000, ∑ f : Fin 128, err aff cs x w n f * err aff cs x w n f

end Cert.Spec

end
-- ==== Proof.KernelValues.lean ====
/-
  The grid points' results in the vocabulary of the specification, and the two accumulations summed up.

  Point `t`'s block of affiliations is rows `10000·t …` of `A`, its block of scaled affiliations the same rows of `B`,
  its reconstruction errors the same rows of `err`.  The Gram accumulator after the last point is
  `((((0 + G₀) + G₁) + G₂) + G₃) + G₄` with `Gₜ` the sum of `A n k · B n l` over the rows of block `t`, which is the sum over
  all 50000 rows: the entry of `Aᵀ B`.  The loss accumulator likewise is the sum of the squared errors over all rows
  and columns.  Only the order of additions changes, so no finiteness is used.
-/
import proofs.«106901_j64604898066506_2_alg».proof.Proof.KernelAcc
import proofs.«106901_j64604898066506_2_alg».proof.Proof.KernelPayloads
import proofs.«106901_j64604898066506_2_alg».proof.Proof.KernelBlocks
import proofs.«106901_j64604898066506_2_alg».proof.Proof.TileSums
import proofs.«106901_j64604898066506_2_alg».proof.Proof.Spec

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen Cert.KernelIdeal.Acc Cert.KernelIdeal.Payloads Cert.KernelIdeal.Blocks
open Idealize.ShloMosaic.ValueIdx
open scoped BigOperators

variable (m : (ℓ : Loc nD τ sig) → Buf (Elt Ideal) ℓ) (c : Dev nD)

/-- Point `t`'s block of affiliations is rows `10000·t …` of `A`. -/
theorem A_blk (t : Fin cfg0.N) (r : Fin 10000) (k : Fin 64) :
    k0_pay5 (F := Ideal) (iblk m c 0 t) (ix2 r k) = Spec.A (m ((c : Thread nD τ).loc main_arg2)) (rowAt t r) k := by
  show Ideal.logistic ((iblk m c 0 t : Vec Ideal S10000x64 .f32) (ix2 r k)) = Ideal.logistic ((m ((c : Thread nD τ).loc main_arg2)) (ix2 (rowAt t r) k))
  rw [blk0_apply m c t r k]

/-- Point `t`'s block of scaled affiliations is the same rows of `B`. -/
theorem B_blk (t : Fin cfg0.N) (r : Fin 10000) (k : Fin 64) :
    k0_pay6 (F := Ideal) (iblk m c 0 t) (iblk m c 1 t) (ix2 r k) = Spec.B (m ((c : Thread nD τ).loc main_arg2)) (m ((c : Thread nD τ).loc main_arg3)) (rowAt t r) k := by
  refine (pay6_apply (iblk m c 0 t) (iblk m c 1 t) r k).trans ?_
  rw [blk0_apply m c t r k, blk1_apply m c t 0 k]
  rfl

/-- Point `t`'s reconstruction errors are the same rows of `err`. -/
theorem err_blk (t : Fin cfg0.N) (r : Fin 10000) (f : Fin 128) :
    err (iblk m c 0 t) (iblk m c 1 t) (iblk m c 2 t) (iblk m c 3 t) r f = Spec.err (m ((c : Thread nD τ).loc main_arg2)) (m ((c : Thread nD τ).loc main_arg3)) (m ((c : Thread nD τ).loc main_arg0)) (m ((c : Thread nD τ).loc main_arg4)) (rowAt t r) f := by
  unfold Payloads.err Spec.err
  rw [blk2_apply m c t r f]
  have sub_congr : ∀ (X a b : EReal), a = b → X - a = X - b := fun X a b hab => by rw [hab]
  refine sub_congr _ _ _ (Finset.sum_congr rfl fun k _ => ?_)
  rw [B_blk m c t r k, blk3_apply m c t k f]

/-- The sum of `A n k · B n l` over the rows of block `t`. -/
def gramTile (t : Fin cfg0.N) (k l : Fin 64) : EReal :=
  ∑ r : Fin 10000, Spec.A (m ((c : Thread nD τ).loc main_arg2)) (rowAt t r) k * Spec.B (m ((c : Thread nD τ).loc main_arg2)) (m ((c : Thread nD τ).loc main_arg3)) (rowAt t r) l

/-- The sum of the squared errors over the rows of block `t`. -/
def lossTile (t : Fin cfg0.N) : EReal :=
  ∑ r : Fin 10000, ∑ f : Fin 128, Spec.err (m ((c : Thread nD τ).loc main_arg2)) (m ((c : Thread nD τ).loc main_arg3)) (m ((c : Thread nD τ).loc main_arg0)) (m ((c : Thread nD τ).loc main_arg4)) (rowAt t r) f * Spec.err (m ((c : Thread nD τ).loc main_arg2)) (m ((c : Thread nD τ).loc main_arg3)) (m ((c : Thread nD τ).loc main_arg0)) (m ((c : Thread nD τ).loc main_arg4)) (rowAt t r) f

theorem zero_block (k l : Fin 64) : (k0_pay2 (F := Ideal) : Vec Ideal S64x64 .f32) (ix2 k l) = 0 := by
  show Ideal.ofBits .f32 0x00000000#32 = 0
  exact Ideal.ofBits_zero_f32

theorem zero_cell (u v : Fin 1) : (k0_pay3 (F := Ideal) : Vec Ideal S1x1 .f32) (ix2 u v) = 0 := by
  show Ideal.ofBits .f32 0x00000000#32 = 0
  exact Ideal.ofBits_zero_f32

theorem accM_zero (h : 0 < cfg0.N) (k l : Fin 64) :
    accM m c 0 h (ix2 k l) = 0 + gramTile m c ⟨0, h⟩ k l := by
  refine (pay7_apply (iblk m c 0 ⟨0, h⟩) (iblk m c 1 ⟨0, h⟩) (k0_pay2 (F := Ideal)) k l).trans ?_
  rw [zero_block]
  refine congrArg (0 + ·) (Finset.sum_congr rfl fun r _ => ?_)
  rw [A_blk m c ⟨0, h⟩ r k, B_blk m c ⟨0, h⟩ r l]

theorem accM_succ (n : ℕ) (h : n + 1 < cfg0.N) (k l : Fin 64) :
    accM m c (n + 1) h (ix2 k l) = accM m c n (Nat.lt_of_succ_lt h) (ix2 k l) + gramTile m c ⟨n + 1, h⟩ k l := by
  refine (pay7_apply (iblk m c 0 ⟨n + 1, h⟩) (iblk m c 1 ⟨n + 1, h⟩) (accM m c n (Nat.lt_of_succ_lt h)) k l).trans ?_
  refine congrArg (accM m c n (Nat.lt_of_succ_lt h) (ix2 k l) + ·) (Finset.sum_congr rfl fun r _ => ?_)
  rw [A_blk m c ⟨n + 1, h⟩ r k, B_blk m c ⟨n + 1, h⟩ r l]

/-- The Gram accumulator after the last point is the entry of `Aᵀ B`. -/
theorem gram_final (k l : Fin 64) : accM m c 4 lt4 (ix2 k l) = Spec.gram (m ((c : Thread nD τ).loc main_arg2)) (m ((c : Thread nD τ).loc main_arg3)) k l := by
  have h3 : 3 < cfg0.N := Nat.lt_of_succ_lt lt4
  have h2 : 2 < cfg0.N := Nat.lt_of_succ_lt h3
  have h1 : 1 < cfg0.N := Nat.lt_of_succ_lt h2
  have h0 : 0 < cfg0.N := Nat.lt_of_succ_lt h1
  have e0 : accM m c 0 h0 (ix2 k l) = 0 + gramTile m c ⟨0, h0⟩ k l := accM_zero m c h0 k l
  have e1 : accM m c 1 h1 (ix2 k l) = accM m c 0 h0 (ix2 k l) + gramTile m c ⟨1, h1⟩ k l := accM_succ m c 0 h1 k l
  have e2 : accM m c 2 h2 (ix2 k l) = accM m c 1 h1 (ix2 k l) + gramTile m c ⟨2, h2⟩ k l := accM_succ m c 1 h2 k l
  have e3 : accM m c 3 h3 (ix2 k l) = accM m c 2 h2 (ix2 k l) + gramTile m c ⟨3, h3⟩ k l := accM_succ m c 2 h3 k l
  have e4 : accM m c 4 lt4 (ix2 k l) = accM m c 3 h3 (ix2 k l) + gramTile m c ⟨4, lt4⟩ k l := accM_succ m c 3 lt4 k l
  rw [e4, e3, e2, e1, e0]
  exact TileSums.five_tiles (fun n => Spec.A (m ((c : Thread nD τ).loc main_arg2)) n k * Spec.B (m ((c : Thread nD τ).loc main_arg2)) (m ((c : Thread nD τ).loc main_arg3)) n l)

/-- The loss cell's last cast keeps its shape: the identity. -/
theorem pay1_apply (v : FVec Ideal S1x1 .f32) (j : S1x1.Idx) : k0_pay1 (F := Ideal) v j = v j :=
  congrFun (shapeCast_self v Facts₀.shapeCasts_S1x1_S1x1) j

theorem accF_zero (h : 0 < cfg0.N) (u v : Fin 1) :
    accF m c 0 h (ix2 u v) = 0 + lossTile m c ⟨0, h⟩ := by
  refine (pay1_apply (k0_pay8 (F := Ideal) (iblk m c 0 ⟨0, h⟩) (iblk m c 1 ⟨0, h⟩) (iblk m c 3 ⟨0, h⟩) (iblk m c 2 ⟨0, h⟩) (k0_pay3 (F := Ideal))) (ix2 u v)).trans ?_
  refine (pay8_apply (iblk m c 0 ⟨0, h⟩) (iblk m c 1 ⟨0, h⟩) (iblk m c 2 ⟨0, h⟩) (iblk m c 3 ⟨0, h⟩) (k0_pay3 (F := Ideal)) u v).trans ?_
  rw [zero_cell]
  refine congrArg (0 + ·) (Finset.sum_congr rfl fun r _ => Finset.sum_congr rfl fun f _ => ?_)
  rw [err_blk m c ⟨0, h⟩ r f]

theorem accF_succ (n : ℕ) (h : n + 1 < cfg0.N) (u v : Fin 1) :
    accF m c (n + 1) h (ix2 u v) = accF m c n (Nat.lt_of_succ_lt h) (ix2 u v) + lossTile m c ⟨n + 1, h⟩ := by
  refine (pay1_apply (k0_pay8 (F := Ideal) (iblk m c 0 ⟨n + 1, h⟩) (iblk m c 1 ⟨n + 1, h⟩) (iblk m c 3 ⟨n + 1, h⟩) (iblk m c 2 ⟨n + 1, h⟩) (accF m c n (Nat.lt_of_succ_lt h))) (ix2 u v)).trans ?_
  refine (pay8_apply (iblk m c 0 ⟨n + 1, h⟩) (iblk m c 1 ⟨n + 1, h⟩) (iblk m c 2 ⟨n + 1, h⟩) (iblk m c 3 ⟨n + 1, h⟩)
    (accF m c n (Nat.lt_of_succ_lt h)) u v).trans ?_
  refine congrArg (accF m c n (Nat.lt_of_succ_lt h) (ix2 u v) + ·) (Finset.sum_congr rfl fun r _ => Finset.sum_congr rfl fun f _ => ?_)
  rw [err_blk m c ⟨n + 1, h⟩ r f]

/-- The loss accumulator after the last point is the sum of all squared errors. -/
theorem loss_final (u v : Fin 1) : accF m c 4 lt4 (ix2 u v) = Spec.loss (m ((c : Thread nD τ).loc main_arg2)) (m ((c : Thread nD τ).loc main_arg3)) (m ((c : Thread nD τ).loc main_arg0)) (m ((c : Thread nD τ).loc main_arg4)) := by
  have h3 : 3 < cfg0.N := Nat.lt_of_succ_lt lt4
  have h2 : 2 < cfg0.N := Nat.lt_of_succ_lt h3
  have h1 : 1 < cfg0.N := Nat.lt_of_succ_lt h2
  have h0 : 0 < cfg0.N := Nat.lt_of_succ_lt h1
  have e0 : accF m c 0 h0 (ix2 u v) = 0 + lossTile m c ⟨0, h0⟩ := accF_zero m c h0 u v
  have e1 : accF m c 1 h1 (ix2 u v) = accF m c 0 h0 (ix2 u v) + lossTile m c ⟨1, h1⟩ := accF_succ m c 0 h1 u v
  have e2 : accF m c 2 h2 (ix2 u v) = accF m c 1 h1 (ix2 u v) + lossTile m c ⟨2, h2⟩ := accF_succ m c 1 h2 u v
  have e3 : accF m c 3 h3 (ix2 u v) = accF m c 2 h2 (ix2 u v) + lossTile m c ⟨3, h3⟩ := accF_succ m c 2 h3 u v
  have e4 : accF m c 4 lt4 (ix2 u v) = accF m c 3 h3 (ix2 u v) + lossTile m c ⟨4, lt4⟩ := accF_succ m c 3 lt4 u v
  rw [e4, e3, e2, e1, e0]
  exact TileSums.five_tiles (fun n => ∑ f : Fin 128, Spec.err (m ((c : Thread nD τ).loc main_arg2)) (m ((c : Thread nD τ).loc main_arg3)) (m ((c : Thread nD τ).loc main_arg0)) (m ((c : Thread nD τ).loc main_arg4)) n f * Spec.err (m ((c : Thread nD τ).loc main_arg2)) (m ((c : Thread nD τ).loc main_arg3)) (m ((c : Thread nD τ).loc main_arg0)) (m ((c : Thread nD τ).loc main_arg4)) n f)

end Cert.KernelIdeal.Values

end
-- ==== Proof.KernelArrays.lean ====
/-
  What the four arrays the call returns hold after it.

  The affiliations and the scaled affiliations are written back block by block, every point writing the rows it
  computed, and the five blocks cover the arrays: they end holding `A` and `B`.  The Gram matrix and the loss are
  written back once, after the last point, and that one block is the whole array: they end holding `Aᵀ B` and the total
  loss.
-/
import proofs.«106901_j64604898066506_2_alg».proof.Proof.KernelValues

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Acc Cert.KernelIdeal.Blocks Cert.KernelIdeal.Values
open Idealize.ShloMosaic.ValueIdx

variable (m : (ℓ : Loc nD τ sig) → Buf (Elt Ideal) ℓ) (c : Dev nD)

/-- The affiliations, as the contents of the first returned array. -/
def arrA : Buf (Elt Ideal) ((c : Thread nD τ).loc main_v2_0) := fun i => Spec.A (m ((c : Thread nD τ).loc main_arg2)) (i 0) (i 1)

theorem emb4 (t : Fin cfg0.N) (r : Fin 10000) (k : Fin 64) :
    ((cfg0.win 4).blk t).view.emb (ix2 r k) = ix2 (rowAt t r) k := by
  obtain ⟨-, -, -, -, -, -, -, -, e0, e1, -, -, -, -, -, -⟩ := idx_facts t
  funext a; apply Fin.ext
  match a with
  | ⟨0, _⟩ => show win0_4.index t (0 : Fin 2) * 10000 + 1 * r.val = 10000 * t.val + r.val; rw [e0]; omega
  | ⟨1, _⟩ => show win0_4.index t (1 : Fin 2) * 64 + 1 * k.val = k.val; rw [e1]; omega

/-- What point `t` writes back is block `t` of that array. -/
theorem flushed4_eq (t : Fin cfg0.N) :
    (dats m 0 c).flushed 4 t = ((cfg0.win 4).blk t).view.read (Elt Ideal) (arrA m c) := by
  show (cfg0.win 4).cut (grid0.coords t) ((dats m 0 c).after 4 t) = _
  rw [after0_4, out4_eq m c t]
  refine funext fun (j : S10000x64.Idx) => ?_
  obtain ⟨r, k, rfl⟩ : ∃ (r : Fin 10000) (k : Fin 64), j = ix2 r k := ⟨j 0, j 1, eq_ix2 j⟩
  show _ = arrA m c (((cfg0.win 4).blk t).view.emb (ix2 r k))
  rw [emb4 t r k]
  exact A_blk m c t r k

theorem mem_blk4 (t : Fin cfg0.N) (i : S50000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v2_0).slice (win0_4.rect t)).set ↔ _
  rw [View.set_slice_whole, Rect.mem_set_unit]
  exact Iff.rfl

/-- Every row lies in the block of the point `row / 10000`. -/
theorem cover4 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  have ht : (i 0).val / 10000 < cfg0.N := by rw [N5]; omega
  obtain ⟨-, -, -, -, -, -, -, -, e0, e1, -, -, -, -, -, -⟩ := idx_facts ⟨(i 0).val / 10000, ht⟩
  refine ⟨⟨(i 0).val / 10000, ht⟩, flush0_4 _, ?_⟩
  rw [mem_blk4]
  intro a
  match a with
  | ⟨0, _⟩ =>
    show win0_4.index ⟨(i 0).val / 10000, ht⟩ (0 : Fin 2) * 10000 ≤ (i 0).val ∧ (i 0).val < win0_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_4.index ⟨(i 0).val / 10000, ht⟩ (1 : Fin 2) * 64 ≤ (i 1).val ∧ (i 1).val < win0_4.index ⟨(i 0).val / 10000, ht⟩ (1 : Fin 2) * 64 + 64
    rw [e1]; omega

/-- The array after the call. -/
theorem final4 : (dats m 0 c).arrAt 4 cfg0.N = arrA m c :=
  (dats m 0 c).arrAt_eq_of_cover 4 (arrA m c) (fun t _ => flushed4_eq m c t) (cover4)

/-- The scaled affiliations, as the contents of the second returned array. -/
def arrB : Buf (Elt Ideal) ((c : Thread nD τ).loc main_v2_1) := fun i => Spec.B (m ((c : Thread nD τ).loc main_arg2)) (m ((c : Thread nD τ).loc main_arg3)) (i 0) (i 1)

theorem emb5 (t : Fin cfg0.N) (r : Fin 10000) (k : Fin 64) :
    ((cfg0.win 5).blk t).view.emb (ix2 r k) = ix2 (rowAt t r) k := by
  obtain ⟨-, -, -, -, -, -, -, -, -, -, e0, e1, -, -, -, -⟩ := idx_facts t
  funext a; apply Fin.ext
  match a with
  | ⟨0, _⟩ => show win0_5.index t (0 : Fin 2) * 10000 + 1 * r.val = 10000 * t.val + r.val; rw [e0]; omega
  | ⟨1, _⟩ => show win0_5.index t (1 : Fin 2) * 64 + 1 * k.val = k.val; rw [e1]; omega

/-- What point `t` writes back is block `t` of that array. -/
theorem flushed5_eq (t : Fin cfg0.N) :
    (dats m 0 c).flushed 5 t = ((cfg0.win 5).blk t).view.read (Elt Ideal) (arrB m c) := by
  show (cfg0.win 5).cut (grid0.coords t) ((dats m 0 c).after 5 t) = _
  rw [after0_5, out5_eq m c t]
  refine funext fun (j : S10000x64.Idx) => ?_
  obtain ⟨r, k, rfl⟩ : ∃ (r : Fin 10000) (k : Fin 64), j = ix2 r k := ⟨j 0, j 1, eq_ix2 j⟩
  show _ = arrB m c (((cfg0.win 5).blk t).view.emb (ix2 r k))
  rw [emb5 t r k]
  exact B_blk m c t r k

theorem mem_blk5 (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v2_1).slice (win0_5.rect t)).set ↔ _
  rw [View.set_slice_whole, Rect.mem_set_unit]
  exact Iff.rfl

/-- Every row lies in the block of the point `row / 10000`. -/
theorem cover5 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have ht : (i 0).val / 10000 < cfg0.N := by rw [N5]; omega
  obtain ⟨-, -, -, -, -, -, -, -, -, -, e0, e1, -, -, -, -⟩ := idx_facts ⟨(i 0).val / 10000, ht⟩
  refine ⟨⟨(i 0).val / 10000, ht⟩, flush0_5 _, ?_⟩
  rw [mem_blk5]
  intro a
  match a with
  | ⟨0, _⟩ =>
    show win0_5.index ⟨(i 0).val / 10000, ht⟩ (0 : Fin 2) * 10000 ≤ (i 0).val ∧ (i 0).val < win0_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, ht⟩ (1 : Fin 2) * 64 ≤ (i 1).val ∧ (i 1).val < win0_5.index ⟨(i 0).val / 10000, ht⟩ (1 : Fin 2) * 64 + 64
    rw [e1]; omega

/-- The array after the call. -/
theorem final5 : (dats m 0 c).arrAt 5 cfg0.N = arrB m c :=
  (dats m 0 c).arrAt_eq_of_cover 5 (arrB m c) (fun t _ => flushed5_eq m c t) (cover5)

/-- The Gram matrix, as the contents of the third returned array. -/
def arrM : Buf (Elt Ideal) ((c : Thread nD τ).loc main_v2_2) := fun i => Spec.gram (m ((c : Thread nD τ).loc main_arg2)) (m ((c : Thread nD τ).loc main_arg3)) (i 0) (i 1)

theorem emb6 (t : Fin cfg0.N) (p : Fin 64) (q : Fin 64) :
    ((cfg0.win 6).blk t).view.emb (ix2 p q) = ix2 p q := by
  obtain ⟨-, -, -, -, -, -, -, -, -, -, -, -, e0, e1, -, -⟩ := idx_facts t
  funext a; apply Fin.ext
  match a with
  | ⟨0, _⟩ => show win0_6.index t (0 : Fin 2) * 64 + 1 * p.val = p.val; rw [e0]; omega
  | ⟨1, _⟩ => show win0_6.index t (1 : Fin 2) * 64 + 1 * q.val = q.val; rw [e1]; omega

set_option maxRecDepth 400000 in
/-- The one write-back, after the last point, writes the accumulator's final value. -/
theorem flushed6_eq (t : Fin cfg0.N) (hf : (cfg0.win 6).flush t = true) :
    (dats m 0 c).flushed 6 t = ((cfg0.win 6).blk t).view.read (Elt Ideal) (arrM m c) := by
  have h4 : t.val = 4 := by have := (flush0_6 t).mp hf; have := t.isLt; have := N5; omega
  have ht : t = ⟨4, lt4⟩ := Fin.ext h4
  have e6 : (outsAt0 m c t.val t.isLt).2.2.1 = accM m c 4 lt4 := by
    subst ht
    exact (out67_eq m c).1
  show (cfg0.win 6).cut (grid0.coords t) ((dats m 0 c).after 6 t) = _
  rw [after0_6, e6]
  refine funext fun (j : S64x64.Idx) => ?_
  obtain ⟨p, q, rfl⟩ : ∃ (p : Fin 64) (q : Fin 64), j = ix2 p q := ⟨j 0, j 1, eq_ix2 j⟩
  show _ = arrM m c (((cfg0.win 6).blk t).view.emb (ix2 p q))
  rw [emb6 t p q]
  exact gram_final m c p q

theorem mem_blk6 (t : Fin cfg0.N) (i : S64x64.Idx) :
    i ∈ ((cfg0.win 6).blk t).view.set ↔ ∀ a : Fin 2, win0_6.index t a * S64x64.size a ≤ (i a).val ∧ (i a).val < win0_6.index t a * S64x64.size a + S64x64.size a := by
  show i ∈ ((View.whole main_v2_2).slice (win0_6.rect t)).set ↔ _
  rw [View.set_slice_whole, Rect.mem_set_unit]
  exact Iff.rfl

theorem cover6 (i : S64x64.Idx) : ∃ t : Fin cfg0.N, (cfg0.win 6).flush t = true ∧ i ∈ ((cfg0.win 6).blk t).view.set := by
  have hi0 : (i 0).val < 64 := (i 0).isLt
  have hi1 : (i 1).val < 64 := (i 1).isLt
  obtain ⟨-, -, -, -, -, -, -, -, -, -, -, -, e0, e1, -, -⟩ := idx_facts ⟨4, lt4⟩
  refine ⟨⟨4, lt4⟩, (flush0_6 _).mpr (by decide), ?_⟩
  rw [mem_blk6]
  intro a
  match a with
  | ⟨0, _⟩ =>
    show win0_6.index ⟨4, lt4⟩ (0 : Fin 2) * 64 ≤ (i 0).val ∧ (i 0).val < win0_6.index ⟨4, lt4⟩ (0 : Fin 2) * 64 + 64
    rw [e0]; omega
  | ⟨1, _⟩ =>
    show win0_6.index ⟨4, lt4⟩ (1 : Fin 2) * 64 ≤ (i 1).val ∧ (i 1).val < win0_6.index ⟨4, lt4⟩ (1 : Fin 2) * 64 + 64
    rw [e1]; omega

/-- The array after the call. -/
theorem final6 : (dats m 0 c).arrAt 6 cfg0.N = arrM m c :=
  (dats m 0 c).arrAt_eq_of_cover 6 (arrM m c) (flushed6_eq m c) (cover6)

/-- The total loss, as the contents of the fourth returned array. -/
def arrL : Buf (Elt Ideal) ((c : Thread nD τ).loc main_v2_3) := fun i => Spec.loss (m ((c : Thread nD τ).loc main_arg2)) (m ((c : Thread nD τ).loc main_arg3)) (m ((c : Thread nD τ).loc main_arg0)) (m ((c : Thread nD τ).loc main_arg4))

theorem emb7 (t : Fin cfg0.N) (p : Fin 1) (q : Fin 1) :
    ((cfg0.win 7).blk t).view.emb (ix2 p q) = ix2 p q := by
  obtain ⟨-, -, -, -, -, -, -, -, -, -, -, -, -, -, e0, e1⟩ := idx_facts t
  funext a; apply Fin.ext
  match a with
  | ⟨0, _⟩ => show win0_7.index t (0 : Fin 2) * 1 + 1 * p.val = p.val; rw [e0]; omega
  | ⟨1, _⟩ => show win0_7.index t (1 : Fin 2) * 1 + 1 * q.val = q.val; rw [e1]; omega

set_option maxRecDepth 400000 in
/-- The one write-back, after the last point, writes the accumulator's final value. -/
theorem flushed7_eq (t : Fin cfg0.N) (hf : (cfg0.win 7).flush t = true) :
    (dats m 0 c).flushed 7 t = ((cfg0.win 7).blk t).view.read (Elt Ideal) (arrL m c) := by
  have h4 : t.val = 4 := by have := (flush0_7 t).mp hf; have := t.isLt; have := N5; omega
  have ht : t = ⟨4, lt4⟩ := Fin.ext h4
  have e7 : (outsAt0 m c t.val t.isLt).2.2.2.1 = accF m c 4 lt4 := by
    subst ht
    exact (out67_eq m c).2
  show (cfg0.win 7).cut (grid0.coords t) ((dats m 0 c).after 7 t) = _
  rw [after0_7, e7]
  refine funext fun (j : S1x1.Idx) => ?_
  obtain ⟨p, q, rfl⟩ : ∃ (p : Fin 1) (q : Fin 1), j = ix2 p q := ⟨j 0, j 1, eq_ix2 j⟩
  show _ = arrL m c (((cfg0.win 7).blk t).view.emb (ix2 p q))
  rw [emb7 t p q]
  exact loss_final m c p q

theorem mem_blk7 (t : Fin cfg0.N) (i : S1x1.Idx) :
    i ∈ ((cfg0.win 7).blk t).view.set ↔ ∀ a : Fin 2, win0_7.index t a * S1x1.size a ≤ (i a).val ∧ (i a).val < win0_7.index t a * S1x1.size a + S1x1.size a := by
  show i ∈ ((View.whole main_v2_3).slice (win0_7.rect t)).set ↔ _
  rw [View.set_slice_whole, Rect.mem_set_unit]
  exact Iff.rfl

theorem cover7 (i : S1x1.Idx) : ∃ t : Fin cfg0.N, (cfg0.win 7).flush t = true ∧ i ∈ ((cfg0.win 7).blk t).view.set := by
  have hi0 : (i 0).val < 1 := (i 0).isLt
  have hi1 : (i 1).val < 1 := (i 1).isLt
  obtain ⟨-, -, -, -, -, -, -, -, -, -, -, -, -, -, e0, e1⟩ := idx_facts ⟨4, lt4⟩
  refine ⟨⟨4, lt4⟩, (flush0_7 _).mpr (by decide), ?_⟩
  rw [mem_blk7]
  intro a
  match a with
  | ⟨0, _⟩ =>
    show win0_7.index ⟨4, lt4⟩ (0 : Fin 2) * 1 ≤ (i 0).val ∧ (i 0).val < win0_7.index ⟨4, lt4⟩ (0 : Fin 2) * 1 + 1
    rw [e0]; omega
  | ⟨1, _⟩ =>
    show win0_7.index ⟨4, lt4⟩ (1 : Fin 2) * 1 ≤ (i 1).val ∧ (i 1).val < win0_7.index ⟨4, lt4⟩ (1 : Fin 2) * 1 + 1
    rw [e1]; omega

/-- The array after the call. -/
theorem final7 : (dats m 0 c).arrAt 7 cfg0.N = arrL m c :=
  (dats m 0 c).arrAt_eq_of_cover 7 (arrL m c) (flushed7_eq m c) (cover7)

end Cert.KernelIdeal.Arrays

end
-- ==== Proof.KernelTail.lean ====
/-
  The host lines after the call, as one function of the four returned arrays and the edge list, and the whole
  program's result through it.

  The lines compute, from the Gram matrix `M`, the loss cell `L`, the affiliations `A`, the scaled affiliations `B` and
  the edge list: `∑ M ∘ Mᵀ`; the edge term `∑ₑ ∑ₖ A[src e, k] · B[dst e, k]` (each endpoint read as a signed integer, a
  negative one wrapped by 50000, then clamped into the array by the gather); and from them
  `(∑ M∘Mᵀ − 2·edge + 800000) / 50000 + 0.1 · (L / 128)`.
-/
import proofs.«106901_j64604898066506_2_alg».proof.Proof.KernelArrays
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Blocks Cert.KernelIdeal.Arrays
open Idealize.ShloMosaic.ValueIdx Idealize.ShloMosaic.StableHlo

variable (m : (ℓ : Loc nD τ sig) → Buf (Elt Ideal) ℓ)

/-- One endpoint of every edge as a column of start indices: row `row` of the edge list, a negative entry wrapped by
    50000. -/
def endpoints (off : Fin 2 → Nat) (h : S2x800000.Slices off S1x800000) (e : IVec S2x800000 32) : IVec S800000x1 32 :=
  broadcastInDim S800000x1 ![0] Facts₀.bcast_S800000_S800000x1_0
    (select
      (cmpi .slt (shapeCast S800000 (extractStridedSlice S1x800000 off e h) Facts₀.shapeCasts_S1x800000_S800000)
        (broadcastInDim S800000 ![] Facts₀.bcast_S_S800000 (constantI S_ 32 0#32)))
      (addi (shapeCast S800000 (extractStridedSlice S1x800000 off e h) Facts₀.shapeCasts_S1x800000_S800000)
        (broadcastInDim S800000 ![] Facts₀.bcast_S_S800000 (constantI S_ 32 50000#32)))
      (shapeCast S800000 (extractStridedSlice S1x800000 off e h) Facts₀.shapeCasts_S1x800000_S800000))

/-- The per-edge, per-community products `A[src e, k] · B[dst e, k]`. -/
def edgeProducts (A B : FVec Ideal S50000x64 .bf16) (e : IVec S2x800000 32) : FVec Ideal S800000x64 .f32 :=
  mulf
    (extf .f32 (Host.gather gather_S50000x64_S800000x1_S800000x64_1_0_n_n_0_1_164 A
      (endpoints ![0, 0] Facts₀.slices_S2x800000_S1x800000_0_0 e)) Facts₀.bitsLt_bf16_f32)
    (extf .f32 (Host.gather gather_S50000x64_S800000x1_S800000x64_1_0_n_n_0_1_164 B
      (endpoints ![1, 0] Facts₀.slices_S2x800000_S1x800000_1_0 e)) Facts₀.bitsLt_bf16_f32)

/-- The closing arithmetic on the Gram matrix `M`, the edge products `P` and the loss `f`. -/
def finish (M : FVec Ideal S64x64 .f32) (P : FVec Ideal S800000x64 .f32) (f : FVec Ideal S_ .f32) : FVec Ideal S_ .f32 :=
  addf
    (Host.divf
      (addf
        (subf
          (Host.reduceAdd (mulf M (transpose S64x64 [1, 0] M Facts₀.transposes_S64x64_S64x64_1_0))
            (constant (F := Ideal) S_ .f32 0x00000000#32) Facts₀.reducesTo_S64x64_S_d0_1 Facts₀.h_S_)
          (mulf (constant (F := Ideal) S_ .f32 0x40000000#32)
            (Host.reduceAdd P (constant (F := Ideal) S_ .f32 0x00000000#32) Facts₀.reducesTo_S800000x64_S_d0_1 Facts₀.h_S_)))
        (constant (F := Ideal) S_ .f32 0x49435000#32))
      (constant (F := Ideal) S_ .f32 0x47435000#32))
    (mulf (constant (F := Ideal) S_ .f32 0x3DCCCCCD#32) (Host.divf f (constant (F := Ideal) S_ .f32 0x43000000#32)))

/-- The lines after the call. -/
def hostTail (A B : FVec Ideal S50000x64 .bf16) (M : FVec Ideal S64x64 .f32) (L : FVec Ideal S1x1 .f32)
    (e : IVec S2x800000 32) : FVec Ideal S_ .f32 :=
  finish M (edgeProducts A B e) (shapeCast S_ L Facts₀.shapeCasts_S1x1_S_)

/-- The program's result: the lines after the call applied to what the call's four arrays hold and the edge list. -/
theorem result_eq (c : Dev nD) :
    Pipeline.afterTail₀ cfgs (dats m) 0 (V0 m) [hostOps1] c main_v35
      = hostTail (arrA m c) (arrB m c) (arrM m c) (arrL m c) (m ((c : Thread nD τ).loc main_arg1)) := by
  unfold Pipeline.afterTail₀
  show StableHlo.after hostOps1 _ (Proc.devRef .tc main_v35) = _
  generalize hW : Pipeline.withArrays _ c (V0 m c) _ = W
  have h4 : W (Proc.devRef .tc main_v2_0) = arrA m c := by
    rw [← hW]; exact (Pipeline.withArrays_arr spec0 launch0.win.arr_inj c _ _ 4).trans (final4 m c)
  have h5 : W (Proc.devRef .tc main_v2_1) = arrB m c := by
    rw [← hW]; exact (Pipeline.withArrays_arr spec0 launch0.win.arr_inj c _ _ 5).trans (final5 m c)
  have h6 : W (Proc.devRef .tc main_v2_2) = arrM m c := by
    rw [← hW]; exact (Pipeline.withArrays_arr spec0 launch0.win.arr_inj c _ _ 6).trans (final6 m c)
  have h7 : W (Proc.devRef .tc main_v2_3) = arrL m c := by
    rw [← hW]; exact (Pipeline.withArrays_arr spec0 launch0.win.arr_inj c _ _ 7).trans (final7 m c)
  have h1 : W (Proc.devRef .tc main_arg1) = m ((c : Thread nD τ).loc main_arg1) := by
    rw [← hW]
    exact (Pipeline.withArrays_of_ne _ c (V0 m c) _ main_arg1 (by exact (by decide : ∀ w, Pipeline.arrRef spec0 w ≠ main_arg1))).trans
      (V_main_arg1 m c)
  after_results_simp
  rw [h4, h5, h6, h7, h1]
  rfl

/-- THE KERNEL PROGRAM'S RUN, read: every weakly fair execution terminates with the result at the host lines' value of
    the call's four arrays and the edge list, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v35)
          = hostTail (arrA m c) (arrB m c) (arrM m c) (arrL m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v35 (Pipeline.mem_restRefs_of main_v35 (by decide) (by decide))).trans (result_eq m c),
      ((h c).1 2).trans (((dats m 0 c).arrAt_in 2 rfl _).trans ((A_eq m c 2).trans (V_main_arg0 m c))),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Tail

end
-- ==== Proof.RefStages.lean ====
/-
  The reference's intermediate arrays, read in the vocabulary of the specification.

  The reference spells the logistic function as `1 / (1 + exp (−x))`, which over the extended reals is the logistic
  function itself (the word `0x3F800000` is the real one); its scaled affiliations are the affiliations times the scalars
  spread along the rows; its `einsum` is the sum over all 50000 nodes; its total sum over a [50000, 128] array is the
  double sum over rows and columns, started from the zero word.
-/
import proofs.«106901_j64604898066506_2_alg».proof.Proof.Gen.ReferenceIdeal.Read
import proofs.«106901_j64604898066506_2_alg».proof.Proof.Spec
import Idealize.ShloMosaic.Lib.IdealHost

noncomputable section

namespace Cert.RefStages

open Idealize.ShloMosaic Idealize.ShloMosaic.ValueIdx
open Cert.ReferenceIdeal Cert.ReferenceIdeal.Read
open scoped BigOperators

variable (x0 : (⟨S50000x128, .f32⟩ : BufTy).Contents (Elt Ideal)) (x2 : (⟨S50000x64, .f32⟩ : BufTy).Contents (Elt Ideal))
  (x3 : (⟨S64, .f32⟩ : BufTy).Contents (Elt Ideal)) (x4 : (⟨S64x128, .f32⟩ : BufTy).Contents (Elt Ideal))

/-- The reference's `1 / (1 + exp (−x))` is the logistic function. -/
theorem sigma_apply (i : S50000x64.Idx) : val_main_v5 (F := Ideal) x2 i = Ideal.logistic (x2 i) := by
  rw [val_main_v5_apply, val_main_v4_apply, val_main_cst_0_apply, val_main_v3_apply, val_main_v2_apply,
    val_main_cst_apply, val_main_v1_apply, val_main_v0_apply]
  show Ideal.div (Ideal.ofBits .f32 0x3F800000#32) (Ideal.ofBits .f32 0x3F800000#32 + Ideal.exp (-(x2 i))) = _
  rw [Ideal.ofBits_one_f32]
  rfl

theorem A_apply (n : Fin 50000) (k : Fin 64) : val_main_v5 (F := Ideal) x2 (ix2 n k) = Spec.A x2 n k :=
  sigma_apply x2 (ix2 n k)

/-- The scalars spread along the rows read, at `(n, k)`, the scalar `k`. -/
theorem scalars_apply (n : Fin 50000) (k : Fin 64) : val_main_v7 (F := Ideal) x3 (ix2 n k) = x3 (ix1 k) := by
  rw [val_main_v7_apply, val_main_v6_apply]
  exact congrArg x3 (funext fun a => match a with | ⟨0, _⟩ => rfl)

theorem B_apply (n : Fin 50000) (k : Fin 64) : val_main_v8 (F := Ideal) x2 x3 (ix2 n k) = Spec.B x2 x3 n k := by
  rw [val_main_v8_apply, A_apply, scalars_apply]
  rfl

/-- The reference's `einsum` is `Aᵀ B`. -/
theorem gram_apply (k l : Fin 64) : val_main_v9 (F := Ideal) x2 x3 (ix2 k l) = Spec.gram x2 x3 k l := by
  rw [val_main_v9_apply]
  unfold Spec.gram
  refine Finset.sum_congr rfl fun n _ => ?_
  have el : lidx_main_v9 (ix2 k l) n = ix2 n k := funext fun a => match a with | ⟨0, _⟩ => rfl | ⟨1, _⟩ => rfl
  have er : ridx_main_v9 (ix2 k l) n = ix2 n l := funext fun a => match a with | ⟨0, _⟩ => rfl | ⟨1, _⟩ => rfl
  rw [el, er, A_apply, B_apply]

theorem err_apply (n : Fin 50000) (f : Fin 128) :
    val_main_v41 (F := Ideal) x0 x2 x3 x4 (ix2 n f) = Spec.err x2 x3 x0 x4 n f := by
  rw [val_main_v41_apply, val_main_v40_apply]
  unfold Spec.err
  refine congrArg (x0 (ix2 n f) - ·) (Finset.sum_congr rfl fun k _ => ?_)
  have el : lidx_main_v40 (ix2 n f) k = ix2 n k := funext fun a => match a with | ⟨0, _⟩ => rfl | ⟨1, _⟩ => rfl
  have er : ridx_main_v40 (ix2 n f) k = ix2 k f := funext fun a => match a with | ⟨0, _⟩ => rfl | ⟨1, _⟩ => rfl
  rw [el, er, B_apply]

/-- The reference's total sum of the squared errors, started from the zero word, is the double sum. -/
theorem loss_apply (i : S_.Idx) : val_main_v43 (F := Ideal) x0 x2 x3 x4 i = Spec.loss x2 x3 x0 x4 := by
  rw [val_main_v43_apply, val_main_cst_9_apply]
  show Ideal.ofBits .f32 0x00000000#32 + _ = _
  rw [Ideal.ofBits_zero_f32, zero_add, sum_idx2]
  unfold Spec.loss
  refine Finset.sum_congr rfl fun n _ => Finset.sum_congr rfl fun f _ => ?_
  rw [val_main_v42_apply, err_apply]
  rfl

end Cert.RefStages

end
-- ==== Proof.LibRowGather.lean ====
/-
  Gathering rows of a matrix.  `x[idx]` along axis 0 of an `[N, D]` matrix, with start indices of shape `[E, 1]`,
  lowers to a gather whose result `[E, D]` has, at `(e, k)`, the operand's element at `(r e, k)`: the row `r e` is the
  start index stored at `[e, 0]`, read as a signed integer and clamped into `[0, N - 1]`; the column is the result's own.
  Both coordinates are computed here from the gather's dimension numbers, for any extents.  Two consequences are what a
  value proof uses: the row read depends on the result's row only, and the column read is the result's column.
-/
import Idealize.ShloMosaic.Lib.ValueIdx

noncomputable section

namespace Cert.Lib.RowGather

open Idealize.ShloMosaic Idealize.ShloMosaic.ValueIdx

/-- The dimension numbers of a row gather: operand `[N, D]`, start indices `[E, 1]`, result `[E, D]`; the slice is one
    whole row (`[1, D]`), the row axis is collapsed, the result's axis 1 is the row's offset axis. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index `[e, 0]`: where the row number that result row `e` reads is stored. -/
abbrev startIdx {E : Nat} (e : Fin E) : (⟨2, ![E, 1]⟩ : Shape).Idx := ix2 e ⟨0, Nat.one_pos⟩

variable {N E D w : Nat}

/-- THE ROW READ: the start index stored at `[j 0, 0]`, signed, clamped into `[0, N - 1]`.  It depends on `j` through
    its row `j 0` only. -/
theorem operandIdx_row (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N E D wf).operandIdx j idx 0).val = min (idx (startIdx (j 0))).toInt.toNat (N - 1) := by
  show (rowsDims N E D wf).start j idx 0 + (rowsDims N E D wf).batchCoord j 0 + (rowsDims N E D wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N E D wf).startIndexMap from List.mem_singleton.mpr rfl)]
  have hsi : (rowsDims N E D wf).siIdx j ⟨List.idxOf (0 : Fin 2) (rowsDims N E D wf).startIndexMap,
      List.idxOf_lt_length_iff.2 (List.mem_singleton.mpr rfl)⟩ = startIdx (j 0) := by
    funext b; refine Fin.ext ?_
    match b with
    | ⟨0, _⟩ => rfl
    | ⟨1, _⟩ => rfl
  rw [hsi]
  rfl

/-- THE COLUMN READ: the result's own column. -/
theorem operandIdx_col (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N E D wf).operandIdx j idx 1).val = (j 1).val := by
  show (rowsDims N E D wf).start j idx 1 + (rowsDims N E D wf).batchCoord j 1 + (rowsDims N E D wf).offCoord j 1 = _
  rw [GatherDims.batchCoord_eq_zero _ _ _ List.not_mem_nil]
  have hs : (rowsDims N E D wf).start j idx 1 = 0 := by
    unfold GatherDims.start
    rw [dif_neg (show ¬ (1 : Fin 2) ∈ ([0] : List (Fin 2)) by decide)]
  have hk : (1 : Fin 2) ∈ (rowsDims N E D wf).sKept :=
    (GatherDims.mem_sKept _ _).mpr ⟨(show ¬ (1 : Fin 2) ∈ ([0] : List (Fin 2)) by decide), List.not_mem_nil⟩
  rw [hs]
  unfold GatherDims.offCoord
  rw [dif_pos hk]
  simp only [Nat.zero_add, Nat.add_zero]
  rfl

/-- Two result indices in one row read the same operand row. -/
theorem operandIdx_row_congr (wf : GatherDims.WF ⟨2, ![N, D]⟩ ⟨2, ![E, 1]⟩ ⟨2, ![E, D]⟩ [1] [0] [] [0] [] 1 ![1, D])
    (idx : IVec ⟨2, ![E, 1]⟩ w) (j j' : (⟨2, ![E, D]⟩ : Shape).Idx) (h : j 0 = j' 0) :
    ((rowsDims N E D wf).operandIdx j idx 0).val = ((rowsDims N E D wf).operandIdx j' idx 0).val := by
  rw [operandIdx_row, operandIdx_row, h]

end Cert.Lib.RowGather

end
-- ==== Proof.LibRowGatherRead.lean ====
/-
  A row gather read at an entry.  `x[idx]` along axis 0 of an `[N, D]` matrix with start indices `[E, 1]` holds, at
  `(e, k)`, the matrix entry `(row e, k)`, where `row e` is the start index stored at `[e, 0]`, read as a signed integer
  and clamped into `[0, N − 1]`.  Stated for any element type, for the dimension numbers of a row gather and for any
  record of dimension numbers equal to them.
-/
import proofs.«106901_j64604898066506_2_alg».proof.Proof.LibRowGather

noncomputable section

namespace Cert.Lib.RowGatherRead

open Idealize.ShloMosaic Idealize.ShloMosaic.ValueIdx Cert.Lib.RowGather

variable {N E D w : Nat}

/-- The row that result row `e` reads: the start index at `[e, 0]`, signed, clamped into `[0, N − 1]`. -/
def clampRow (hN : 0 < N) (idx : IVec ⟨2, ![E, 1]⟩ w) (e : Fin E) : Fin N :=
  ⟨min (idx (startIdx e)).toInt.toNat (N - 1), Nat.lt_of_le_of_lt (Nat.min_le_right _ _) (Nat.sub_lt hN Nat.one_pos)⟩

/-- The operand index read at `(e, k)` is `(clampRow e, k)`. -/
theorem operandIdx_eq (wf : GatherDims.WF ⟨2, ![N, D]⟩ ⟨2, ![E, 1]⟩ ⟨2, ![E, D]⟩ [1] [0] [] [0] [] 1 ![1, D]) (hN : 0 < N)
    (idx : IVec ⟨2, ![E, 1]⟩ w) (e : Fin E) (k : Fin D) :
    (rowsDims N E D wf).operandIdx (ix2 e k) idx = ix2 (clampRow hN idx e) k :=
  funext fun a => Fin.ext (by
    match a with
    | ⟨0, _⟩ => exact operandIdx_row wf idx (ix2 e k)
    | ⟨1, _⟩ => exact operandIdx_col wf idx (ix2 e k))

/-- The gather's result at `(e, k)` is the matrix at `(clampRow e, k)`. -/
theorem gather_apply {α : Type} (wf : GatherDims.WF ⟨2, ![N, D]⟩ ⟨2, ![E, 1]⟩ ⟨2, ![E, D]⟩ [1] [0] [] [0] [] 1 ![1, D]) (hN : 0 < N)
    (G : GatherDims ⟨2, ![N, D]⟩ ⟨2, ![E, 1]⟩ ⟨2, ![E, D]⟩) (hG : G = rowsDims N E D wf)
    (x : (⟨2, ![N, D]⟩ : Shape).Idx → α) (idx : IVec ⟨2, ![E, 1]⟩ w) (e : Fin E) (k : Fin D) :
    Host.gather G x idx (ix2 e k) = x (ix2 (clampRow hN idx e) k) := by
  subst hG
  exact congrArg x (operandIdx_eq wf hN idx e k)

end Cert.Lib.RowGatherRead

end
-- ==== Proof.Bridge.lean ====
/-
  The two programs' results are one value.

  After the call the kernel's host lines see the arrays `A`, `B`, `Aᵀ B` and the total loss; the reference computes the
  same four quantities from the arguments.  Both then apply the same closing arithmetic, so it remains to compare the
  edge terms: the kernel multiplies `A[src e, k]` by `B[dst e, k] = A[dst e, k] · cs k`, the reference multiplies
  `A[dst e, k] · cs k` by `A[src e, k]` — the same product of extended reals in the other order.  Both programs turn an
  endpoint into a row by the same integer operations and the same clamping gather, which are never opened.
-/
import proofs.«106901_j64604898066506_2_alg».proof.Proof.KernelTail
import proofs.«106901_j64604898066506_2_alg».proof.Proof.RefStages
import proofs.«106901_j64604898066506_2_alg».proof.Proof.LibRowGatherRead

set_option maxRecDepth 16384

noncomputable section

namespace Cert.Bridge

open Idealize.ShloMosaic Idealize.ShloMosaic.ValueIdx
open Cert.ReferenceIdeal Cert.ReferenceIdeal.Read Cert.RefStages Cert.Lib.RowGatherRead
open scoped BigOperators

variable (x0 : (⟨S50000x128, .f32⟩ : BufTy).Contents (Elt Ideal)) (e : (⟨S2x800000, .i32⟩ : BufTy).Contents (Elt Ideal))
  (x2 : (⟨S50000x64, .f32⟩ : BufTy).Contents (Elt Ideal)) (x3 : (⟨S64, .f32⟩ : BufTy).Contents (Elt Ideal))
  (x4 : (⟨S64x128, .f32⟩ : BufTy).Contents (Elt Ideal))

/-- The affiliations as an array. -/
abbrev arrA : (⟨2, ![50000, 64]⟩ : Shape).Idx → EReal := fun i => Spec.A x2 (i 0) (i 1)
/-- The scaled affiliations as an array. -/
abbrev arrB : (⟨2, ![50000, 64]⟩ : Shape).Idx → EReal := fun i => Spec.B x2 x3 (i 0) (i 1)

theorem n_pos : 0 < 50000 := by decide

/-- The reference's gather of the affiliations along one endpoint column reads `A` at the clamped row. -/
theorem ref_gather_apply (idx : IVec S800000x1 32) (q : Fin 800000) (k : Fin 64) :
    Host.gather gather_S50000x64_S800000x1_S800000x64_1_0_n_n_0_1_164 (val_main_v5 (F := Ideal) x2) idx (ix2 q k) = Spec.A x2 (clampRow n_pos idx q) k :=
  (gather_apply Facts₀.gather_S50000x64_S800000x1_S800000x64_1_0_n_n_0_1_164_wf n_pos gather_S50000x64_S800000x1_S800000x64_1_0_n_n_0_1_164 rfl (val_main_v5 (F := Ideal) x2) idx q k).trans
    (A_apply x2 _ k)

/-- The scalars spread over the edges read, at `(q, k)`, the scalar `k`. -/
theorem edge_scalars_apply (q : Fin 800000) (k : Fin 64) : val_main_v25 (F := Ideal) x3 (ix2 q k) = x3 (ix1 k) := by
  rw [val_main_v25_apply, val_main_v24_apply]
  exact congrArg x3 (funext fun a => match a with | ⟨0, _⟩ => rfl)

/-- The kernel's endpoint columns are the reference's: the same integer operations on the same rows of the edge list. -/
theorem src_eq : Cert.KernelIdeal.Tail.endpoints ![0, 0] Cert.KernelIdeal.Facts₀.slices_S2x800000_S1x800000_0_0 e
    = val_main_v32 (F := Ideal) e := rfl

theorem dst_eq : Cert.KernelIdeal.Tail.endpoints ![1, 0] Cert.KernelIdeal.Facts₀.slices_S2x800000_S1x800000_1_0 e
    = val_main_v22 (F := Ideal) e := rfl

/-- THE EDGE TERMS: entry by entry the kernel's product is the reference's, by commutativity. -/
theorem edge_eq :
    Cert.KernelIdeal.Tail.edgeProducts (arrA x2) (arrB x2 x3) e = val_main_v34 (F := Ideal) e x2 x3 := by
  refine funext fun (j : (⟨2, ![800000, 64]⟩ : Shape).Idx) => ?_
  obtain ⟨q, k, rfl⟩ : ∃ (q : Fin 800000) (k : Fin 64), j = ix2 q k := ⟨j 0, j 1, eq_ix2 j⟩
  have g23 : val_main_v23 (F := Ideal) e x2 (ix2 q k) = Spec.A x2 (clampRow n_pos (val_main_v22 (F := Ideal) e) q) k :=
    ref_gather_apply x2 (val_main_v22 (F := Ideal) e) q k
  have g33 : val_main_v33 (F := Ideal) e x2 (ix2 q k) = Spec.A x2 (clampRow n_pos (val_main_v32 (F := Ideal) e) q) k :=
    ref_gather_apply x2 (val_main_v32 (F := Ideal) e) q k
  rw [val_main_v34_apply, val_main_v26_apply, g23, g33, edge_scalars_apply]
  have kS : Host.gather Cert.KernelIdeal.gather_S50000x64_S800000x1_S800000x64_1_0_n_n_0_1_164 (arrA x2)
      (Cert.KernelIdeal.Tail.endpoints ![0, 0] Cert.KernelIdeal.Facts₀.slices_S2x800000_S1x800000_0_0 e) (ix2 q k)
      = Spec.A x2 (clampRow n_pos (val_main_v32 (F := Ideal) e) q) k := by
    rw [src_eq]
    exact gather_apply Cert.KernelIdeal.Facts₀.gather_S50000x64_S800000x1_S800000x64_1_0_n_n_0_1_164_wf n_pos Cert.KernelIdeal.gather_S50000x64_S800000x1_S800000x64_1_0_n_n_0_1_164 rfl (arrA x2) _ q k
  have kD : Host.gather Cert.KernelIdeal.gather_S50000x64_S800000x1_S800000x64_1_0_n_n_0_1_164 (arrB x2 x3)
      (Cert.KernelIdeal.Tail.endpoints ![1, 0] Cert.KernelIdeal.Facts₀.slices_S2x800000_S1x800000_1_0 e) (ix2 q k)
      = Spec.B x2 x3 (clampRow n_pos (val_main_v22 (F := Ideal) e) q) k := by
    rw [dst_eq]
    exact gather_apply Cert.KernelIdeal.Facts₀.gather_S50000x64_S800000x1_S800000x64_1_0_n_n_0_1_164_wf n_pos Cert.KernelIdeal.gather_S50000x64_S800000x1_S800000x64_1_0_n_n_0_1_164 rfl (arrB x2 x3) _ q k
  show Host.gather Cert.KernelIdeal.gather_S50000x64_S800000x1_S800000x64_1_0_n_n_0_1_164 (arrA x2) _ (ix2 q k) * Host.gather Cert.KernelIdeal.gather_S50000x64_S800000x1_S800000x64_1_0_n_n_0_1_164 (arrB x2 x3) _ (ix2 q k) = _
  rw [kS, kD]
  exact mul_comm _ _

/-- The Gram matrix as an array is the reference's `einsum`. -/
theorem gram_eq : (fun i => Spec.gram x2 x3 (i 0) (i 1) : (⟨2, ![64, 64]⟩ : Shape).Idx → EReal) = val_main_v9 (F := Ideal) x2 x3 := by
  refine funext fun (i : (⟨2, ![64, 64]⟩ : Shape).Idx) => ?_
  obtain ⟨k, l, rfl⟩ : ∃ (k l : Fin 64), i = ix2 k l := ⟨i 0, i 1, eq_ix2 i⟩
  exact (gram_apply x2 x3 k l).symm

/-- The loss cell reshaped to a scalar is the reference's total. -/
theorem loss_eq : shapeCast Cert.KernelIdeal.S_ (fun _ => Spec.loss x2 x3 x0 x4 : Cert.KernelIdeal.S1x1.Idx → EReal)
      Cert.KernelIdeal.Facts₀.shapeCasts_S1x1_S_ = val_main_v43 (F := Ideal) x0 x2 x3 x4 :=
  funext fun i => (loss_apply x0 x2 x3 x4 i).symm

/-- The closing arithmetic of the two programs is one function. -/
theorem ref_finish :
    val_main_v46 (F := Ideal) x0 e x2 x3 x4
      = Cert.KernelIdeal.Tail.finish (val_main_v9 (F := Ideal) x2 x3) (val_main_v34 (F := Ideal) e x2 x3) (val_main_v43 (F := Ideal) x0 x2 x3 x4) := rfl

/-- The kernel's host lines, at the arrays the call leaves, give the reference's result. -/
theorem tail_eq_ref :
    Cert.KernelIdeal.Tail.hostTail (arrA x2) (arrB x2 x3) (fun i => Spec.gram x2 x3 (i 0) (i 1)) (fun _ => Spec.loss x2 x3 x0 x4) e
      = val_main_v46 (F := Ideal) x0 e x2 x3 x4 :=
  (congr (congr (congrArg Cert.KernelIdeal.Tail.finish (gram_eq x2 x3)) (edge_eq e x2 x3)) (loss_eq x0 x2 x3 x4)).trans
    (ref_finish x0 e x2 x3 x4).symm

end Cert.Bridge

end
-- ==== Proof.lean ====
/-
  The certificate's five claims.

  The three frames: the kernel program's and its idealization's are the generated frame runs; the reference's is its
  generated run with the result dropped.  The idealization rewrote nothing, so `preserves` is trivial.

  `algebraic`: the idealized kernel computes, tile by tile over five blocks of 10000 rows, the affiliations
  `A = σ(logits)`, `B = A · scalars`, the Gram matrix `Aᵀ B` and the sum of the squared reconstruction errors of
  `x − B w`, and its host lines finish with `(∑ M∘Mᵀ − 2·∑ₑ∑ₖ A[src e,k]·B[dst e,k] + 800000)/50000 + 0.1·(loss/128)`.
  The reference computes the same quantities whole.  Over the extended reals the two differ only in the order of
  additions (five tile sums against one sum, two nested sums against one double sum) and of one product in the edge
  term; addition and multiplication of extended reals are commutative and associative, so the results are equal for
  every input and the precondition is never opened.  The common value is stated as the reference's final stage of
  the kernel's own arguments.
-/
import proofs.«106901_j64604898066506_2_alg».proof.Defs
import proofs.«106901_j64604898066506_2_alg».proof.Proof.Gen.Kernel
import proofs.«106901_j64604898066506_2_alg».proof.Proof.Gen.Kernel.Frame
import proofs.«106901_j64604898066506_2_alg».proof.Proof.Gen.KernelIdeal
import proofs.«106901_j64604898066506_2_alg».proof.Proof.Gen.KernelIdeal.Frame
import proofs.«106901_j64604898066506_2_alg».proof.Proof.Gen.ReferenceIdeal
import proofs.«106901_j64604898066506_2_alg».proof.Proof.Gen.ReferenceIdeal.Run
import proofs.«106901_j64604898066506_2_alg».proof.Proof.Gen.ReferenceIdeal.Read
import proofs.«106901_j64604898066506_2_alg».proof.Proof.Gen.Pre_finite_inputs
import proofs.«106901_j64604898066506_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's final stage of the (agreeing) arguments. -/
theorem algebraic : Cert.algebraic_KernelIdeal_ReferenceIdeal := by
  intro m ρ m' ρ' _ hagree
  refine ⟨fun c => Cert.ReferenceIdeal.Read.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.KernelIdeal.Tail.run m ρ)
    exact Cert.Bridge.tail_eq_ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v46_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
